-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x8192 : Shape := ⟨2, ![64, 8192]⟩
abbrev S8192 : Shape := ⟨1, ![8192]⟩
abbrev S8192x4 : Shape := ⟨2, ![8192, 4]⟩
abbrev S8192x8192 : Shape := ⟨2, ![8192, 8192]⟩
abbrev S_ : Shape := ⟨0, ![]⟩

class Facts : Prop where
  bcast_S_S64x8192 : S_.BroadcastsInDim S64x8192 (![] : Fin 0 → Fin S64x8192.rank)
  reducesTo_S64x8192_S_d0_1 : S64x8192.ReducesTo [0, 1] S_
  h_S_ : 0 < S_.numel
  bcast_S_S8192 : S_.BroadcastsInDim S8192 (![] : Fin 0 → Fin S8192.rank)
  reducesTo_S8192_S_d0 : S8192.ReducesTo [0] S_
  bcast_S_S8192x4 : S_.BroadcastsInDim S8192x4 (![] : Fin 0 → Fin S8192x4.rank)
  reducesTo_S8192x4_S_d0_1 : S8192x4.ReducesTo [0, 1] S_
  bcast_S_S8192x8192 : S_.BroadcastsInDim S8192x8192 (![] : Fin 0 → Fin S8192x8192.rank)
  reducesTo_S8192x8192_S_d0_1 : S8192x8192.ReducesTo [0, 1] S_

variable [Facts]

def fn_part1 {F : FTy → Type} [FloatOps F] (main_arg4 : FVec F S8192x4 .f32) (main_arg5 : FVec F S8192x8192 .f32) (main_v13 : IVec S_ 1) (main_v16 : IVec S8192x4 1) : IVec S_ 1 :=
  let main_c_5 : IVec S_ 1 := constantI S_ 1 1#1
  let main_v17 : IVec S_ 1 := (fun x v => Host.reduce IntOp.andi x v reducesTo_S8192x4_S_d0_1 h_S_) main_v16 main_c_5
  let main_v18 : IVec S_ 1 := andi main_v13 main_v17
  let main_v19 : FVec F S8192x4 .f32 := Host.absf main_arg4
  let main_cst_6 : FVec F S_ .f32 := constant S_ .f32 0x7F800000#32
  let main_v20 : FVec F S8192x4 .f32 := broadcastInDim S8192x4 ![] bcast_S_S8192x4 main_cst_6
  let main_v21 : IVec S8192x4 1 := cmpf .olt main_v19 main_v20
  let main_c_7 : IVec S_ 1 := constantI S_ 1 1#1
  let main_v22 : IVec S_ 1 := (fun x v => Host.reduce IntOp.andi x v reducesTo_S8192x4_S_d0_1 h_S_) main_v21 main_c_7
  let main_v23 : IVec S_ 1 := andi main_v18 main_v22
  let main_v24 : FVec F S8192x8192 .f32 := Host.absf main_arg5
  let main_cst_8 : FVec F S_ .f32 := constant S_ .f32 0x7F800000#32
  let main_v25 : FVec F S8192x8192 .f32 := broadcastInDim S8192x8192 ![] bcast_S_S8192x8192 main_cst_8
  let main_v26 : IVec S8192x8192 1 := cmpf .olt main_v24 main_v25
  let main_c_9 : IVec S_ 1 := constantI S_ 1 1#1
  let main_v27 : IVec S_ 1 := (fun x v => Host.reduce IntOp.andi x v reducesTo_S8192x8192_S_d0_1 h_S_) main_v26 main_c_9
  let main_v28 : IVec S_ 1 := andi main_v23 main_v27
  main_v28

def fn {F : FTy → Type} [FloatOps F] (main_arg0 : FVec F S64x8192 .f32) (main_arg1 : FVec F S64x8192 .f32) (main_arg2 : FVec F S8192 .f32) (main_arg3 : FVec F S8192x4 .f32) (main_arg4 : FVec F S8192x4 .f32) (main_arg5 : FVec F S8192x8192 .f32) : IVec S_ 1 :=
  let main_v0 : FVec F S64x8192 .f32 := Host.absf main_arg0
  let main_cst : FVec F S_ .f32 := constant S_ .f32 0x7F800000#32
  let main_v1 : FVec F S64x8192 .f32 := broadcastInDim S64x8192 ![] bcast_S_S64x8192 main_cst
  let main_v2 : IVec S64x8192 1 := cmpf .olt main_v0 main_v1
  let main_c : IVec S_ 1 := constantI S_ 1 1#1
  let main_v3 : IVec S_ 1 := (fun x v => Host.reduce IntOp.andi x v reducesTo_S64x8192_S_d0_1 h_S_) main_v2 main_c
  let main_v4 : FVec F S64x8192 .f32 := Host.absf main_arg1
  let main_cst_0 : FVec F S_ .f32 := constant S_ .f32 0x7F800000#32
  let main_v5 : FVec F S64x8192 .f32 := broadcastInDim S64x8192 ![] bcast_S_S64x8192 main_cst_0
  let main_v6 : IVec S64x8192 1 := cmpf .olt main_v4 main_v5
  let main_c_1 : IVec S_ 1 := constantI S_ 1 1#1
  let main_v7 : IVec S_ 1 := (fun x v => Host.reduce IntOp.andi x v reducesTo_S64x8192_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S8192x4 .f32 := Host.absf main_arg3
  let main_cst_4 : FVec F S_ .f32 := constant S_ .f32 0x7F800000#32
  let main_v15 : FVec F S8192x4 .f32 := broadcastInDim S8192x4 ![] bcast_S_S8192x4 main_cst_4
  let main_v16 : IVec S8192x4 1 := cmpf .olt main_v14 main_v15
  fn_part1 (F := F) main_arg4 main_arg5 main_v13 main_v16
-- ==== Kernel.lean ====
abbrev S64x8192 : Shape := ⟨2, ![64, 8192]⟩
abbrev S8192 : Shape := ⟨1, ![8192]⟩
abbrev S8192x4 : Shape := ⟨2, ![8192, 4]⟩
abbrev S8192x8192 : Shape := ⟨2, ![8192, 8192]⟩
abbrev S1x8192 : Shape := ⟨2, ![1, 8192]⟩
abbrev S64x4 : Shape := ⟨2, ![64, 4]⟩
abbrev S4x8192 : Shape := ⟨2, ![4, 8192]⟩
abbrev S1024x4096 : Shape := ⟨2, ![1024, 4096]⟩
abbrev S64x4096 : Shape := ⟨2, ![64, 4096]⟩
abbrev S64x256 : Shape := ⟨2, ![64, 256]⟩
abbrev S256x4096 : Shape := ⟨2, ![256, 4096]⟩

abbrev nBuf : Space → Nat
  | .hbm => 14
  | .vmem => 8
  | .smem => 0
  | _ => 0

abbrev bufTy : (tb : Table) → Fin (tcTables nBuf tb) → BufTy
  | .hbm, ⟨0, _⟩ => ⟨S64x8192, .f32⟩
  | .hbm, ⟨1, _⟩ => ⟨S64x8192, .f32⟩
  | .hbm, ⟨2, _⟩ => ⟨S8192, .f32⟩
  | .hbm, ⟨3, _⟩ => ⟨S8192x4, .f32⟩
  | .hbm, ⟨4, _⟩ => ⟨S8192x4, .f32⟩
  | .hbm, ⟨5, _⟩ => ⟨S8192x8192, .f32⟩
  | .hbm, ⟨6, _⟩ => ⟨S1x8192, .f32⟩
  | .hbm, ⟨7, _⟩ => ⟨S64x8192, .f32⟩
  | .hbm, ⟨8, _⟩ => ⟨S64x8192, .f32⟩
  | .hbm, ⟨9, _⟩ => ⟨S64x4, .f32⟩
  | .hbm, ⟨10, _⟩ => ⟨S4x8192, .f32⟩
  | .hbm, ⟨11, _⟩ => ⟨S64x8192, .f32⟩
  | .hbm, ⟨12, _⟩ => ⟨S64x8192, .f32⟩
  | .hbm, ⟨13, _⟩ => ⟨S64x8192, .f32⟩
  | .local _ .vmem, ⟨0, _⟩ => ⟨S64x8192, .f32⟩
  | .local _ .vmem, ⟨1, _⟩ => ⟨S1024x4096, .f32⟩
  | .local _ .vmem, ⟨2, _⟩ => ⟨S1024x4096, .f32⟩
  | .local _ .vmem, ⟨3, _⟩ => ⟨S64x4096, .f32⟩
  | .local _ .vmem, ⟨4, _⟩ => ⟨S64x4096, .f32⟩
  | .local _ .vmem, ⟨5, _⟩ => ⟨S64x4096, .f32⟩
  | .local _ .vmem, ⟨6, _⟩ => ⟨S64x4096, .f32⟩
  | .local _ .vmem, ⟨7, _⟩ => ⟨S64x4096, .f32⟩
  | _, _ => ⟨S64x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 8], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  let c0_i32_1 : BitVec 32 := 0#32
  let v4 : BitVec 32 := Scalar.addi v3 c0_i32_1
  v4
def k0_off1 (i : grid0.Coords) (c0_i32_1 : BitVec 32) : Fin 2 → Nat :=
  let c0 : Index := 0#32
  let arg1 : BitVec 32 := BitVec.ofNat 32 (i 1).val
  let c1024_i32 : BitVec 32 := 1024#32
  let v3 : BitVec 32 := Scalar.muli arg1 c1024_i32
  let v4 : BitVec 32 := Scalar.addi v3 c0_i32_1
  let v5 : BitVec 32 := v4
  let v6 : Index := Scalar.indexCast v5
  ![0, v6.toNat]
def k0_mult2 (i : grid0.Coords) : BitVec 32 :=
  let arg1 : BitVec 32 := BitVec.ofNat 32 (i 1).val
  let c1024_i32 : BitVec 32 := 1024#32
  let v3 : BitVec 32 := Scalar.muli arg1 c1024_i32
  let c256_i32 : BitVec 32 := 256#32
  let v17 : BitVec 32 := Scalar.addi v3 c256_i32
  v17
def k0_mult3 (i : grid0.Coords) : BitVec 32 :=
  let arg1 : BitVec 32 := BitVec.ofNat 32 (i 1).val
  let c1024_i32 : BitVec 32 := 1024#32
  let v3 : BitVec 32 := Scalar.muli arg1 c1024_i32
  let c512_i32 : BitVec 32 := 512#32
  let v30 : BitVec 32 := Scalar.addi v3 c512_i32
  v30
def k0_mult4 (i : grid0.Coords) : BitVec 32 :=
  let arg1 : BitVec 32 := BitVec.ofNat 32 (i 1).val
  let c1024_i32 : BitVec 32 := 1024#32
  let v3 : BitVec 32 := Scalar.muli arg1 c1024_i32
  let c768_i32 : BitVec 32 := 768#32
  let v43 : BitVec 32 := Scalar.addi v3 c768_i32
  v43
def k0_cond2 (i : grid0.Coords) : BitVec 1 :=
  let arg1 : BitVec 32 := BitVec.ofNat 32 (i 1).val
  let c7_i32 : BitVec 32 := 7#32
  let v56 : BitVec 1 := Scalar.cmpi .eq arg1 c7_i32
  let v57 : BitVec 32 := Scalar.extui v56
  let c0_i32_29 : BitVec 32 := 0#32
  let v58 : BitVec 1 := Scalar.cmpi .ne v57 c0_i32_29
  v58

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S64x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S8192_S1x8192_1 : S8192.BroadcastsInDim S1x8192 (![1] : Fin 1 → Fin S1x8192.rank)
  bcast_S1x8192_S64x8192_0_1 : S1x8192.BroadcastsInDim S64x8192 (![0, 1] : Fin 2 → Fin S64x8192.rank)
  transposes_S8192x4_S4x8192_1_0 : S8192x4.Transposes [1, 0] S4x8192
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  h_S64x256 : 0 < S64x256.numel
  bitsLt_bf16_f32 : FTy.bits .bf16 < FTy.bits .f32
  inb_S1024x4096_S256x4096_0_0 : ∀ a, (![0, 0] : Fin 2 → Nat) a + S256x4096.size a ≤ S1024x4096.size a
  h_S256x4096 : 0 < S256x4096.numel
  inb_S1024x4096_S256x4096_256_0 : ∀ a, (![256, 0] : Fin 2 → Nat) a + S256x4096.size a ≤ S1024x4096.size a
  inb_S1024x4096_S256x4096_512_0 : ∀ a, (![512, 0] : Fin 2 → Nat) a + S256x4096.size a ≤ S1024x4096.size a
  inb_S1024x4096_S256x4096_768_0 : ∀ a, (![768, 0] : Fin 2 → Nat) a + S256x4096.size a ≤ S1024x4096.size a
  dot_S64x8192_S8192x4_S64x4_1_0_0_1_n_n_wf : DotDims.WF S64x8192 S8192x4 S64x4 [1] [0] [0] [1] [] []
  dot_S64x4_S4x8192_S64x8192_1_0_0_1_n_n_wf : DotDims.WF S64x4 S4x8192 S64x8192 [1] [0] [0] [1] [] []
  dot_S64x256_S256x4096_S64x4096_1_0_0_1_n_n_wf : DotDims.WF S64x256 S256x4096 S64x4096 [1] [0] [0] [1] [] []
  hrank0 : 0 < grid0.rank
  k0_mult1_dvd : ∀ i : grid0.Coords, 128 ∣ (k0_mult1 i).toNat
  k0_off1_inb : ∀ i : grid0.Coords, ∀ (r : Fin 4), ∀ a, (k0_off1 i (BitVec.ofNat 32 (256 * r.val))) a + S64x256.size a ≤ S64x8192.size a
  k0_mult2_dvd : ∀ i : grid0.Coords, 128 ∣ (k0_mult2 i).toNat
  k0_mult3_dvd : ∀ i : grid0.Coords, 128 ∣ (k0_mult3 i).toNat
  k0_mult4_dvd : ∀ i : grid0.Coords, 128 ∣ (k0_mult4 i).toNat
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x8192.size a ≤ S64x8192.size a
  hwx0_0 : ∀ i : grid0.Coords, EltTy.bits .f32 = 32 ∨ (Rect.block (s := S64x8192) S64x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S8192x8192.size a
  hwx0_1 : ∀ i : grid0.Coords, EltTy.bits .f32 = 32 ∨ (Rect.block (s := S8192x8192) S1024x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x4096.size a ≤ S64x8192.size a
  hwx0_2 : ∀ i : grid0.Coords, EltTy.bits .f32 = 32 ∨ (Rect.block (s := S64x8192) S64x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x4096.size a ≤ S64x8192.size a
  hwx0_3 : ∀ i : grid0.Coords, EltTy.bits .f32 = 32 ∨ (Rect.block (s := S64x8192) S64x4096.size (cc0_transform_3 i) (hinb0_3 i)).WholeWords (EltTy.packing .f32)

variable [Facts₀]

def dot_S64x8192_S8192x4_S64x4_1_0_0_1_n_n : DotDims S64x8192 S8192x4 S64x4 where
  lhsContracting := [1]
  rhsContracting := [0]
  lhsNonContracting := [0]
  rhsNonContracting := [1]
  lhsBatch := []
  rhsBatch := []
  wf := dot_S64x8192_S8192x4_S64x4_1_0_0_1_n_n_wf
def dot_S64x4_S4x8192_S64x8192_1_0_0_1_n_n : DotDims S64x4 S4x8192 S64x8192 where
  lhsContracting := [1]
  rhsContracting := [0]
  lhsNonContracting := [0]
  rhsNonContracting := [1]
  lhsBatch := []
  rhsBatch := []
  wf := dot_S64x4_S4x8192_S64x8192_1_0_0_1_n_n_wf
def dot_S64x256_S256x4096_S64x4096_1_0_0_1_n_n : DotDims S64x256 S256x4096 S64x4096 where
  lhsContracting := [1]
  rhsContracting := [0]
  lhsNonContracting := [0]
  rhsNonContracting := [1]
  lhsBatch := []
  rhsBatch := []
  wf := dot_S64x256_S256x4096_S64x4096_1_0_0_1_n_n_wf

abbrev win0_0 : Pipeline.Window sig grid0 :=
  Pipeline.Window.ofSpec (Memref.whole main_arg1) S64x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S64x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S64x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S64x8192 : Shape := ⟨2, ![64, 8192]⟩
abbrev S8192 : Shape := ⟨1, ![8192]⟩
abbrev S8192x4 : Shape := ⟨2, ![8192, 4]⟩
abbrev S8192x8192 : Shape := ⟨2, ![8192, 8192]⟩
abbrev S_ : Shape := ⟨0, ![]⟩
abbrev S8192x1 : Shape := ⟨2, ![8192, 1]⟩
abbrev S4x8192 : Shape := ⟨2, ![4, 8192]⟩

abbrev nBuf : Space → Nat
  | .hbm => 26
  | .vmem => 0
  | .smem => 0
  | _ => 0

abbrev bufTy : (tb : Table) → Fin (tcTables nBuf tb) → BufTy
  | .hbm, ⟨0, _⟩ => ⟨S64x8192, .f32⟩
  | .hbm, ⟨1, _⟩ => ⟨S64x8192, .f32⟩
  | .hbm, ⟨2, _⟩ => ⟨S8192, .f32⟩
  | .hbm, ⟨3, _⟩ => ⟨S8192x4, .f32⟩
  | .hbm, ⟨4, _⟩ => ⟨S8192x4, .f32⟩
  | .hbm, ⟨5, _⟩ => ⟨S8192x8192, .f32⟩
  | .hbm, ⟨6, _⟩ => ⟨S_, .f32⟩
  | .hbm, ⟨7, _⟩ => ⟨S8192, .f32⟩
  | .hbm, ⟨8, _⟩ => ⟨S8192x8192, .i32⟩
  | .hbm, ⟨9, _⟩ => ⟨S8192x8192, .i32⟩
  | .hbm, ⟨10, _⟩ => ⟨S_, .i32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S8192x1, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S4x8192, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S64x8192, .f32⟩
  | .hbm, ⟨24, _⟩ => ⟨S64x8192, .f32⟩
  | .hbm, ⟨25, _⟩ => ⟨S64x8192, .f32⟩
  | _, _ => ⟨S64x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_cst : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_c : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_cst_0 : Ref sig .tc := ⟨.hbm, 15, rfl⟩
abbrev main_call0_call0_v0 : Ref sig .tc := ⟨.hbm, 16, rfl⟩
abbrev main_call0_call0_v1 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩

abbrev nD : Nat := 1
abbrev τ : Topo := Topo.v7x

variable {F : FTy → Type} [FloatOps F]

class Facts₀ : Prop where
  pads_S8192_S8192_000 : S8192.Pads (![0] : Fin 1 → Nat) ![0] ![0] S8192
  h_S_ : 0 < S_.numel
  bcast_S_S8192x8192 : S_.BroadcastsInDim S8192x8192 (![] : Fin 0 → Fin S8192x8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  transposes_S8192x4_S4x8192_1_0 : S8192x4.Transposes [1, 0] S4x8192
  transposes_S8192x8192_S8192x8192_1_0 : S8192x8192.Transposes [1, 0] S8192x8192
  dot_S8192x4_S4x8192_S8192x8192_1_0_0_1_n_n_wf : DotDims.WF S8192x4 S4x8192 S8192x8192 [1] [0] [0] [1] [] []
  dot_S64x8192_S8192x8192_S64x8192_1_0_0_1_n_n_wf : DotDims.WF S64x8192 S8192x8192 S64x8192 [1] [0] [0] [1] [] []

variable [Facts₀]

def dot_S8192x4_S4x8192_S8192x8192_1_0_0_1_n_n : DotDims S8192x4 S4x8192 S8192x8192 where
  lhsContracting := [1]
  rhsContracting := [0]
  lhsNonContracting := [0]
  rhsNonContracting := [1]
  lhsBatch := []
  rhsBatch := []
  wf := dot_S8192x4_S4x8192_S8192x8192_1_0_0_1_n_n_wf
def dot_S64x8192_S8192x8192_S64x8192_1_0_0_1_n_n : DotDims S64x8192 S8192x8192 S64x8192 where
  lhsContracting := [1]
  rhsContracting := [0]
  lhsNonContracting := [0]
  rhsNonContracting := [1]
  lhsBatch := []
  rhsBatch := []
  wf := dot_S64x8192_S8192x8192_S64x8192_1_0_0_1_n_n_wf

class Facts : Prop extends Facts₀ where

variable [Facts]
-- ==== Proof.KernelPieces.lean ====
/-
  What one grid point of the streamed matrix product leaves behind, for any float values.

  At grid point (j, k) the body holds the whole 64×8192 left factor, the 1024×4096 block (k, j) of the right
  factor and the 64×4096 block j of the seed. It runs four identical steps, one per 256-row chunk s of the block:
  the accumulator becomes accumulator + (columns 1024k + 256s … of the left factor) · (rows 256s … of the block).
  At k = 0 the accumulator first takes the seed block; at k = 7 the accumulator is copied to the output block.
  Each step's store covers the whole accumulator, so what a point leaves is the four steps nested, applied to the
  seed block (k = 0) or to what the point before left (k > 0).
-/
import proofs.«101165_j9680856285214_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Blocks

open Cert.KernelIdeal Cert.KernelIdeal.Gen

variable {F : FTy → Type} [FloatOps F]

theorem hz : (![0, 0] : Fin 2 → Nat) = fun _ => 0 := funext fun a => by fin_cases a <;> rfl

/-- A load of the whole accumulator after stores the last of which covered it reads that last store's value. -/
theorem readCov_cons_whole {sig : RefSig} {κ : Kind} {sp : Space} {S : Shape} {e : EltTy} {Val : EltTy → Type}
    [∀ e, Nonempty (Val e)] (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

/-- Chunk s of the left factor at grid point i: its columns 1024·k + 256·s … + 255. -/
def leftChunk (i : grid0.Coords) (s : Fin 4) (x0 : Vec F S64x8192 .f32) : Vec F S64x256 .f32 :=
  View.ld x0 (Rect.unit (s := S64x8192) (k0_off1 i (BitVec.ofNat 32 (256 * s.val))) S64x256.size (k0_off1_inb i s))

/-- Chunk s of the right factor's block: its rows 256·s … + 255. -/
def rightChunk (s : Fin 4) (x1 : Vec F S1024x4096 .f32) : Vec F S256x4096 .f32 :=
  View.ld x1 (Rect.unit (s := S1024x4096) ![256 * s.val, 0] S256x4096.size
    (fun a => by have := s.isLt; match a with | ⟨0, _⟩ => show 256 * s.val + 256 ≤ 1024; omega | ⟨1, _⟩ => show 0 + 4096 ≤ 4096; omega))

/-- One step: the accumulator plus the product of the two chunks (the body's four stored values are this one function). -/
def step (xc : Vec F S64x256 .f32) (bc : Vec F S256x4096 .f32) (acc : Vec F S64x4096 .f32) : Vec F S64x4096 .f32 :=
  k0_pay4 xc bc acc

/-- The four steps of one grid point, in order, from the accumulator acc. -/
def fourSteps (i : grid0.Coords) (x0 : Vec F S64x8192 .f32) (x1 : Vec F S1024x4096 .f32) (acc : Vec F S64x4096 .f32) :
    Vec F S64x4096 .f32 :=
  step (leftChunk i 3 x0) (rightChunk 3 x1) (step (leftChunk i 2 x0) (rightChunk 2 x1)
    (step (leftChunk i 1 x0) (rightChunk 1 x1) (step (leftChunk i 0 x0) (rightChunk 0 x1) acc)))

/-- A point with 0 < k < 7 leaves the four steps applied to what the point before left. -/
theorem sout_B (c : Dev nD) (i : grid0.Coords) (a2 : Memref sig .tc .vmem S64x8192 .f32) (h2 : a2.IsWhole) (a3 : Memref sig .tc .vmem S1024x4096 .f32) (h3 : a3.IsWhole) (a4 : Memref sig .tc .vmem S64x4096 .f32) (h4 : a4.IsWhole) (a5 : Memref sig .tc .vmem S64x4096 .f32) (h5 : a5.IsWhole) (a6 : Memref sig .tc .vmem S64x4096 .f32) (h6 : a6.IsWhole) (hc0 : ¬cond0_0 i) (hc1 : ¬cond0_1 i)
    (x0 : Vec F S64x8192 .f32) (x1 : Vec F S1024x4096 .f32) (x2 : Vec F S64x4096 .f32) (xs0 : Vec F S64x4096 .f32) :
    sout0_B_0 c i a2 h2 a3 h3 a4 h4 a5 h5 a6 h6 hc0 hc1 x0 x1 x2 xs0 = fourSteps i x0 x1 xs0 := by
  unfold sout0_B_0
  rw [View.read_writes_eq_canon _ _ _ (scover0_B_0 c i a2 h2 a3 h3 a4 h4 a5 h5 a6 h6 hc0 hc1 x0 x1 x2 xs0)]
  unfold kernelRun0_B
  dsimp only
  sl_unfold_words
  rw [View.canon_cons_unit_zero (S := S64x4096) hz]
  simp only [readCov_cons_whole (S := S64x4096) _ hz, View.readAt_eq_ld, h2.read_unread, h3.read_unread, h6.read_unread,
    View.ld_unit_zero (S := S64x4096) hz]
  rfl

/-- The point k = 7 leaves the same in the accumulator, -/
theorem sout_C (c : Dev nD) (i : grid0.Coords) (a2 : Memref sig .tc .vmem S64x8192 .f32) (h2 : a2.IsWhole) (a3 : Memref sig .tc .vmem S1024x4096 .f32) (h3 : a3.IsWhole) (a4 : Memref sig .tc .vmem S64x4096 .f32) (h4 : a4.IsWhole) (a5 : Memref sig .tc .vmem S64x4096 .f32) (h5 : a5.IsWhole) (a6 : Memref sig .tc .vmem S64x4096 .f32) (h6 : a6.IsWhole) (hc0 : ¬cond0_0 i) (hc1 : cond0_1 i)
    (x0 : Vec F S64x8192 .f32) (x1 : Vec F S1024x4096 .f32) (x2 : Vec F S64x4096 .f32) (xs0 : Vec F S64x4096 .f32) :
    sout0_C_0 c i a2 h2 a3 h3 a4 h4 a5 h5 a6 h6 hc0 hc1 x0 x1 x2 xs0 = fourSteps i x0 x1 xs0 := by
  unfold sout0_C_0
  rw [View.read_writes_eq_canon _ _ _ (scover0_C_0 c i a2 h2 a3 h3 a4 h4 a5 h5 a6 h6 hc0 hc1 x0 x1 x2 xs0)]
  unfold kernelRun0_C
  dsimp only
  sl_unfold_words
  rw [View.canon_cons_unit_zero (S := S64x4096) hz]
  simp only [readCov_cons_whole (S := S64x4096) _ hz, View.readAt_eq_ld, h2.read_unread, h3.read_unread, h6.read_unread,
    View.ld_unit_zero (S := S64x4096) hz]
  rfl

/-- and copies it to the output block. -/
theorem out_C (c : Dev nD) (i : grid0.Coords) (a2 : Memref sig .tc .vmem S64x8192 .f32) (h2 : a2.IsWhole) (a3 : Memref sig .tc .vmem S1024x4096 .f32) (h3 : a3.IsWhole) (a4 : Memref sig .tc .vmem S64x4096 .f32) (h4 : a4.IsWhole) (a5 : Memref sig .tc .vmem S64x4096 .f32) (h5 : a5.IsWhole) (a6 : Memref sig .tc .vmem S64x4096 .f32) (h6 : a6.IsWhole) (hc0 : ¬cond0_0 i) (hc1 : cond0_1 i)
    (x0 : Vec F S64x8192 .f32) (x1 : Vec F S1024x4096 .f32) (x2 : Vec F S64x4096 .f32) (xs0 : Vec F S64x4096 .f32) :
    out0_C_3 c i a2 h2 a3 h3 a4 h4 a5 h5 a6 h6 hc0 hc1 x0 x1 x2 xs0 = fourSteps i x0 x1 xs0 := by
  unfold out0_C_3
  rw [View.read_writes_eq_canon _ _ _ (cover0_C_3 c i a2 h2 a3 h3 a4 h4 a5 h5 a6 h6 hc0 hc1 x0 x1 x2 xs0)]
  unfold kernelRun0_C
  dsimp only
  sl_unfold_words
  rw [View.canon_unit_zero (S := S64x4096) hz]
  simp only [readCov_cons_whole (S := S64x4096) _ hz, View.readAt_eq_ld, h2.read_unread, h3.read_unread, h6.read_unread,
    View.ld_unit_zero (S := S64x4096) hz]
  rfl

/-- The point k = 0 first stores the seed block, then runs the four steps from it. -/
theorem sout_A (c : Dev nD) (i : grid0.Coords) (a2 : Memref sig .tc .vmem S64x8192 .f32) (h2 : a2.IsWhole) (a3 : Memref sig .tc .vmem S1024x4096 .f32) (h3 : a3.IsWhole) (a4 : Memref sig .tc .vmem S64x4096 .f32) (h4 : a4.IsWhole) (a5 : Memref sig .tc .vmem S64x4096 .f32) (h5 : a5.IsWhole) (a6 : Memref sig .tc .vmem S64x4096 .f32) (h6 : a6.IsWhole) (hc0 : cond0_0 i) (hc1 : ¬cond0_1 i)
    (x0 : Vec F S64x8192 .f32) (x1 : Vec F S1024x4096 .f32) (x2 : Vec F S64x4096 .f32) :
    sout0_A_0 c i a2 h2 a3 h3 a4 h4 a5 h5 a6 h6 hc0 hc1 x0 x1 x2 = fourSteps i x0 x1 (k0_pay3 x2) := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  rw [View.canon_cons_unit_zero (S := S64x4096) hz]
  simp only [readCov_cons_whole (S := S64x4096) _ hz, View.readCov_unit_zero (S := S64x4096) _ hz, View.readAt_eq_ld,
    h2.read_unread, h3.read_unread, h4.read_unread, View.ld_unit_zero (S := S64x4096) hz]
  rfl

end Cert.KernelIdeal.Blocks

end
-- ==== Proof.LibPlainDot.lean ====
/-
  The plain matrix product read at one entry, at the ideal values.

  Take dimension numbers that contract the left operand's column axis against the right operand's row axis and
  have no batch axis: an m×k matrix A times a k×n matrix B. Then a kernel's `tpu.matmul` into the zero
  accumulator and the host's `dot_general` both hold, at entry (a, b), the sum over the contracted coordinate c
  of A(a, c) · B(c, b) — in the extended reals, with no finiteness asked, since both are that sum by definition
  once the contraction index is renamed by its one coordinate.

  The dimension record may be any record equal to the library's `DotDims.plain m k n`; for a record written out
  with those lists the equality is `rfl`.
-/
import Idealize.ShloMosaic.PureOps.Ideal.Laws
import Idealize.ShloMosaic.Lib.ValueIdx

noncomputable section

open scoped BigOperators

namespace Cert.PlainDot

open Idealize.ShloMosaic Idealize.ShloMosaic.ValueIdx

variable {m k n : Nat} {φ₁ φ₂ : FTy}

/-- The left operand's row coordinate is the output's row. -/
theorem lhsIdx_plain_0 (j : (⟨2, ![m, n]⟩ : Shape).Idx) (q : (DotDims.plain m k n).contr.Idx) :
    ((DotDims.plain m k n).lhsIdx j q 0).val = (j 0).val := by
  unfold DotDims.lhsIdx
  rw [dif_neg (show ¬(0 : Fin 2) ∈ (DotDims.plain m k n).lhsBatch from List.not_mem_nil),
    dif_pos (show (0 : Fin 2) ∈ (DotDims.plain m k n).lhsNonContracting from List.mem_singleton.mpr rfl)]
  rfl

/-- The left operand's column coordinate is the contraction coordinate. -/
theorem lhsIdx_plain_1 (j : (⟨2, ![m, n]⟩ : Shape).Idx) (q : (DotDims.plain m k n).contr.Idx) :
    ((DotDims.plain m k n).lhsIdx j q 1).val = (q ⟨0, Nat.one_pos⟩).val :=
  (DotDims.plain m k n).lhsIdx_val_of_single rfl j q

/-- The right operand's row coordinate is the contraction coordinate. -/
theorem rhsIdx_plain_0 (j : (⟨2, ![m, n]⟩ : Shape).Idx) (q : (DotDims.plain m k n).contr.Idx) :
    ((DotDims.plain m k n).rhsIdx j q 0).val = (q ⟨0, Nat.one_pos⟩).val :=
  (DotDims.plain m k n).rhsIdx_val_of_single rfl j q

/-- The right operand's column coordinate is the output's column. -/
theorem rhsIdx_plain_1 (j : (⟨2, ![m, n]⟩ : Shape).Idx) (q : (DotDims.plain m k n).contr.Idx) :
    ((DotDims.plain m k n).rhsIdx j q 1).val = (j 1).val := by
  unfold DotDims.rhsIdx
  rw [dif_neg (show ¬(1 : Fin 2) ∈ (DotDims.plain m k n).rhsBatch from List.not_mem_nil),
    dif_pos (show (1 : Fin 2) ∈ (DotDims.plain m k n).rhsNonContracting from List.mem_singleton.mpr rfl)]
  rfl

/-- At output entry (a, b) and contraction coordinate c the left operand is read at (a, c). -/
theorem lhsIdx_plain (a : Fin m) (b : Fin n) (c : Fin k) :
    (DotDims.plain m k n).lhsIdx (ix2 a b) ((contrEquiv1 (DotDims.plain m k n) k rfl rfl).symm c) = ix2 a c := by
  have hc := contrEquiv1_symm_val (DotDims.plain m k n) k rfl rfl c
  funext ax
  apply Fin.ext
  match ax with
  | ⟨0, _⟩ => exact lhsIdx_plain_0 _ _
  | ⟨1, _⟩ => exact (lhsIdx_plain_1 _ _).trans hc

/-- At output entry (a, b) and contraction coordinate c the right operand is read at (c, b). -/
theorem rhsIdx_plain (a : Fin m) (b : Fin n) (c : Fin k) :
    (DotDims.plain m k n).rhsIdx (ix2 a b) ((contrEquiv1 (DotDims.plain m k n) k rfl rfl).symm c) = ix2 c b := by
  have hc := contrEquiv1_symm_val (DotDims.plain m k n) k rfl rfl c
  funext ax
  apply Fin.ext
  match ax with
  | ⟨0, _⟩ => exact (rhsIdx_plain_0 _ _).trans hc
  | ⟨1, _⟩ => exact rhsIdx_plain_1 _ _

/-- The sum over the contraction index of a plain product is the sum over its one coordinate. -/
theorem sum_contr_plain (A : (⟨2, ![m, k]⟩ : Shape).Idx → EReal) (B : (⟨2, ![k, n]⟩ : Shape).Idx → EReal)
    (a : Fin m) (b : Fin n) :
    (∑ q : (DotDims.plain m k n).contr.Idx,
        A ((DotDims.plain m k n).lhsIdx (ix2 a b) q) * B ((DotDims.plain m k n).rhsIdx (ix2 a b) q))
      = ∑ c : Fin k, A (ix2 a c) * B (ix2 c b) := by
  rw [← Equiv.sum_comp (contrEquiv1 (DotDims.plain m k n) k rfl rfl).symm]
  refine Finset.sum_congr rfl fun c _ => ?_
  rw [lhsIdx_plain, rhsIdx_plain]

/-- A `tpu.matmul` into the zero accumulator, with the plain dimension numbers, at entry (a, b):
    the sum over c of A(a, c) · B(c, b). -/
theorem matmul_zero_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂)
    (a : Fin m) (b : Fin n) :
    FloatOps.matmul D prec A B (constant (F := Ideal) ⟨2, ![m, n]⟩ .f32 0x00000000#32) (ix2 a b)
      = ∑ c : Fin k, A (ix2 a c) * B (ix2 c b) := by
  subst hD
  rw [Ideal.matmul_constant_zero_apply]
  exact sum_contr_plain A B a b

/-- The host's `dot_general` with the plain dimension numbers, at entry (a, b): the same sum. -/
theorem dotGeneral_apply (D : DotDims ⟨2, ![m, k]⟩ ⟨2, ![k, n]⟩ ⟨2, ![m, n]⟩) (hD : D = DotDims.plain m k n)
    (prec : Option ContractPrecision) (sched : HostSchedule) (A : FVec Ideal ⟨2, ![m, k]⟩ φ₁)
    (B : FVec Ideal ⟨2, ![k, n]⟩ φ₂) (a : Fin m) (b : Fin n) :
    FloatOps.dotGeneral D prec sched A B (ix2 a b) = ∑ c : Fin k, A (ix2 a c) * B (ix2 c b) := by
  subst hD
  rw [Ideal.dotGeneral_apply]
  exact sum_contr_plain A B a b

end Cert.PlainDot

end
-- ==== Proof.Spec.lean ====
/-
  The diagonal-plus-low-rank state update, entry by entry.

  With h, x of shape 64×8192, a diagonal a of length 8192, two 8192×4 factors p, q and an 8192×8192 matrix B,
  the dense operator is A(n, j) = [n = j]·a(n) + ∑ᵣ p(n, r)·q(j, r), and the result at batch row b and column n is
      ∑ⱼ h(b, j)·A(n, j) + ∑ₖ x(b, k)·B(k, n),
  every sum and product taken in the extended reals.
-/
import Idealize.ShloMosaic.PureOps.Ideal
import Idealize.ShloMosaic.Lib.ValueIdx

noncomputable section

open scoped BigOperators

namespace Cert.Dplr

open Idealize.ShloMosaic Idealize.ShloMosaic.ValueIdx

/-- Entry (n, j) of the dense operator: the diagonal entry on the diagonal, plus the rank-4 product. -/
def dense (a : FVec Ideal ⟨1, ![8192]⟩ .f32) (p q : FVec Ideal ⟨2, ![8192, 4]⟩ .f32) (n j : Fin 8192) : EReal :=
  (if n = j then a (ix1 n) else 0) + ∑ r : Fin 4, p (ix2 n r) * q (ix2 j r)

/-- The result at batch row b, column n, with the dense operator materialised. -/
def denseAt (h x : FVec Ideal ⟨2, ![64, 8192]⟩ .f32) (a : FVec Ideal ⟨1, ![8192]⟩ .f32)
    (p q : FVec Ideal ⟨2, ![8192, 4]⟩ .f32) (B : FVec Ideal ⟨2, ![8192, 8192]⟩ .f32) (b : Fin 64) (n : Fin 8192) : EReal :=
  (∑ j : Fin 8192, h (ix2 b j) * dense a p q n j) + ∑ k : Fin 8192, x (ix2 b k) * B (ix2 k n)

/-- The whole result array. -/
def denseOut (h x : FVec Ideal ⟨2, ![64, 8192]⟩ .f32) (a : FVec Ideal ⟨1, ![8192]⟩ .f32)
    (p q : FVec Ideal ⟨2, ![8192, 4]⟩ .f32) (B : FVec Ideal ⟨2, ![8192, 8192]⟩ .f32) : FVec Ideal ⟨2, ![64, 8192]⟩ .f32 :=
  fun i => denseAt h x a p q B (i 0) (i 1)

/-- The diagonal-plus-low-rank part at (b, n) computed through the rank-4 bottleneck:
    h(b, n)·a(n) + ∑ᵣ (∑ⱼ h(b, j)·q(j, r))·p(n, r). -/
def seedAt (h : FVec Ideal ⟨2, ![64, 8192]⟩ .f32) (a : FVec Ideal ⟨1, ![8192]⟩ .f32)
    (p q : FVec Ideal ⟨2, ![8192, 4]⟩ .f32) (b : Fin 64) (n : Fin 8192) : EReal :=
  h (ix2 b n) * a (ix1 n) + ∑ r : Fin 4, (∑ j : Fin 8192, h (ix2 b j) * q (ix2 j r)) * p (ix2 n r)

/-- The result at (b, n) with that part as the seed of the streamed product x·B. -/
def streamAt (h x : FVec Ideal ⟨2, ![64, 8192]⟩ .f32) (a : FVec Ideal ⟨1, ![8192]⟩ .f32)
    (p q : FVec Ideal ⟨2, ![8192, 4]⟩ .f32) (B : FVec Ideal ⟨2, ![8192, 8192]⟩ .f32) (b : Fin 64) (n : Fin 8192) : EReal :=
  seedAt h a p q b n + ∑ k : Fin 8192, x (ix2 b k) * B (ix2 k n)

/-- The whole result array, seeded. -/
def streamOut (h x : FVec Ideal ⟨2, ![64, 8192]⟩ .f32) (a : FVec Ideal ⟨1, ![8192]⟩ .f32)
    (p q : FVec Ideal ⟨2, ![8192, 4]⟩ .f32) (B : FVec Ideal ⟨2, ![8192, 8192]⟩ .f32) : FVec Ideal ⟨2, ![64, 8192]⟩ .f32 :=
  fun i => streamAt h x a p q B (i 0) (i 1)

end Cert.Dplr

end
-- ==== Proof.Algebra.lean ====
/-
  The two laws that join the two ways of computing the diagonal-plus-low-rank update.

  (1) A sum over 0 … w·n − 1 is the sum over n consecutive blocks of width w: the streamed product adds its
      8192 terms 256 at a time, thirty-two partial sums in a row; addition in the extended reals is
      associative and commutative, so no finiteness is needed for this.
  (2) For REAL h, a, p, q:  ∑ⱼ hⱼ·([n = j]·aₙ + ∑ᵣ pₙᵣ·qⱼᵣ) = hₙ·aₙ + ∑ᵣ (∑ⱼ hⱼ·qⱼᵣ)·pₙᵣ
      — distributivity, which fails at infinities: this is where finiteness of the inputs is used. The law is
      proved in ℝ and carried to extended reals that are coercions of reals.
-/
import proofs.«101165_j9680856285214_2_alg».proof.Proof.Spec

noncomputable section

open scoped BigOperators

namespace Cert.Dplr

open Idealize.ShloMosaic Idealize.ShloMosaic.ValueIdx

/-- A sum over w·n consecutive naturals, cut into n blocks of width w. -/
theorem sum_range_blocks {β : Type*} [AddCommMonoid β] (g : ℕ → β) (w : ℕ) :
    ∀ n, ∑ u ∈ Finset.range (w * n), g u = ∑ k ∈ Finset.range n, ∑ u ∈ Finset.range w, g (w * k + u)
  | 0 => by simp
  | n + 1 => by rw [Nat.mul_succ, Finset.sum_range_add, sum_range_blocks g w n, Finset.sum_range_succ]

/-- Four consecutive partial sums of width 256 added one after the other are the sum of the 1024 terms. -/
theorem four_chunks {β : Type*} [AddCommMonoid β] (g : ℕ → β) (acc : β) :
    acc + (∑ c ∈ Finset.range 256, g (256 * 0 + c)) + (∑ c ∈ Finset.range 256, g (256 * 1 + c))
        + (∑ c ∈ Finset.range 256, g (256 * 2 + c)) + (∑ c ∈ Finset.range 256, g (256 * 3 + c))
      = acc + ∑ u ∈ Finset.range 1024, g u := by
  have h4 : ∀ F : ℕ → β, ∑ k ∈ Finset.range 4, F k = F 0 + F 1 + F 2 + F 3 := fun F => by
    simp only [Finset.sum_range_succ, Finset.sum_range_zero, zero_add]
  rw [show (1024 : ℕ) = 256 * 4 from rfl, sum_range_blocks g 256 4, h4]
  simp only [add_assoc]

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Law (2) over the reals. -/
theorem dplr_real {J R : Type} [Fintype J] [Fintype R] [DecidableEq J] (h a : J → ℝ) (p q : J → R → ℝ) (n : J) :
    ∑ j, h j * ((if n = j then a n else 0) + ∑ r, p n r * q j r) = h n * a n + ∑ r, (∑ j, h j * q j r) * p n r := by
  simp only [mul_add, Finset.sum_add_distrib, mul_ite, mul_zero, Finset.sum_ite_eq, Finset.mem_univ, if_true]
  congr 1
  simp only [Finset.mul_sum, Finset.sum_mul]
  rw [Finset.sum_comm]
  exact Finset.sum_congr rfl fun r _ => Finset.sum_congr rfl fun j _ => by ring

/-- Law (2) for extended reals that are real. -/
theorem dplr_ereal {J R : Type} [Fintype J] [Fintype R] [DecidableEq J] (h a : J → EReal) (p q : J → R → EReal) (n : J)
    (hh : ∀ j, ∃ r : ℝ, h j = r) (ha : ∀ j, ∃ r : ℝ, a j = r) (hp : ∀ j r, ∃ v : ℝ, p j r = v)
    (hq : ∀ j r, ∃ v : ℝ, q j r = v) :
    ∑ j, h j * ((if n = j then a n else 0) + ∑ r, p n r * q j r) = h n * a n + ∑ r, (∑ j, h j * q j r) * p n r := by
  choose h' hh using hh
  choose a' ha using ha
  choose p' hp using hp
  choose q' hq using hq
  have e1 : ∀ j, (if n = j then ((a' n : ℝ) : EReal) else 0) = ((if n = j then a' n else 0 : ℝ) : EReal) :=
    fun j => by split <;> simp
  simp only [hh, ha, hp, hq, e1, ← EReal.coe_mul, ← coe_sum, ← EReal.coe_add]
  exact congrArg _ (dplr_real h' a' p' q' n)

/-- At one entry, for real inputs, seeding the streamed product with the bottleneck form of the
    diagonal-plus-low-rank part gives what the materialised dense operator gives. -/
theorem streamAt_eq_denseAt (h x : FVec Ideal ⟨2, ![64, 8192]⟩ .f32) (a : FVec Ideal ⟨1, ![8192]⟩ .f32)
    (p q : FVec Ideal ⟨2, ![8192, 4]⟩ .f32) (B : FVec Ideal ⟨2, ![8192, 8192]⟩ .f32)
    (hh : ∀ i, ∃ r : ℝ, h i = r) (ha : ∀ i, ∃ r : ℝ, a i = r) (hp : ∀ i, ∃ r : ℝ, p i = r) (hq : ∀ i, ∃ r : ℝ, q i = r)
    (b : Fin 64) (n : Fin 8192) : streamAt h x a p q B b n = denseAt h x a p q B b n := by
  unfold streamAt denseAt seedAt dense
  refine congrArg (· + ∑ k : Fin 8192, x (ix2 b k) * B (ix2 k n)) ?_
  exact (dplr_ereal (fun j => h (ix2 b j)) (fun j => a (ix1 j)) (fun j r => p (ix2 j r)) (fun j r => q (ix2 j r)) n
    (fun j => hh _) (fun j => ha _) (fun j r => hp _) (fun j r => hq _)).symm

/-- The same for the whole arrays. -/
theorem streamOut_eq_denseOut (h x : FVec Ideal ⟨2, ![64, 8192]⟩ .f32) (a : FVec Ideal ⟨1, ![8192]⟩ .f32)
    (p q : FVec Ideal ⟨2, ![8192, 4]⟩ .f32) (B : FVec Ideal ⟨2, ![8192, 8192]⟩ .f32)
    (hh : ∀ i, ∃ r : ℝ, h i = r) (ha : ∀ i, ∃ r : ℝ, a i = r) (hp : ∀ i, ∃ r : ℝ, p i = r) (hq : ∀ i, ∃ r : ℝ, q i = r) :
    streamOut h x a p q B = denseOut h x a p q B :=
  funext fun i => streamAt_eq_denseAt h x a p q B hh ha hp hq (i 0) (i 1)

end Cert.Dplr

end
-- ==== Proof.KernelStep.lean ====
/-
  One grid point of the streamed product, read entry by entry over the extended reals.

  A step adds to the accumulator entry (b, l) the sum over the chunk's 256 columns i of
  (left chunk)(b, i) · (right chunk)(i, l): the product into the zero accumulator is that sum by definition, the
  change of float format the identity. With the left factor X and the right factor's block at rows 1024k …,
  columns 4096j …, the four steps together add ∑_{u < 1024} X(b, 1024k + u) · B(1024k + u, 4096j + l),
  the partial sums regrouped by associativity alone.
-/
import proofs.«101165_j9680856285214_2_alg».proof.Proof.KernelPieces
import proofs.«101165_j9680856285214_2_alg».proof.Proof.LibPlainDot
import proofs.«101165_j9680856285214_2_alg».proof.Proof.Algebra
import Idealize.ShloMosaic.Lib.ValueIdx

noncomputable section

open scoped BigOperators
open Idealize.ShloMosaic Idealize.ShloMosaic.TcCoe Idealize.SL.Sem Idealize.ShloMosaic.ValueIdx

namespace Cert.KernelIdeal.Blocks

open Cert.KernelIdeal Cert.KernelIdeal.Gen

/-- The chunk product's dimension numbers are the plain ones: rows by columns, one contracted axis. -/
theorem dot_plain : dot_S64x256_S256x4096_S64x4096_1_0_0_1_n_n = DotDims.plain 64 256 4096 := rfl

/-- One step at entry (b, l). -/
theorem step_apply (xc : Vec Ideal S64x256 .f32) (bc : Vec Ideal S256x4096 .f32) (acc : Vec Ideal S64x4096 .f32)
    (b : Fin 64) (l : Fin 4096) :
    step (F := Ideal) xc bc acc (ix2 b l) = acc (ix2 b l) + ∑ i : Fin 256, xc (ix2 b i) * bc (ix2 i l) := by
  unfold step k0_pay4
  rw [shapeCast_self]
  refine (addf_apply _ _ _).trans ?_
  refine congrArg (acc (ix2 b l) + ·) ?_
  exact Cert.PlainDot.matmul_zero_apply _ dot_plain none _ _ b l

/-- The seed block passes through its two trivial reshapes unchanged. -/
theorem seed_apply (x2 : Vec Ideal S64x4096 .f32) : k0_pay3 (F := Ideal) x2 = x2 := by
  unfold k0_pay3
  simp only [shapeCast_self]

/-- The product X(b, u)·B(u, n) as a function of natural numbers (zero past the arrays), so that sums over
    ranges of naturals can be cut and glued. -/
def term (X : Vec Ideal S64x8192 .f32) (Bm : Vec Ideal S8192x8192 .f32) (b : Fin 64) (n u : ℕ) : EReal :=
  if h : n < 8192 ∧ u < 8192 then X (ix2 b ⟨u, h.2⟩) * Bm (ix2 ⟨u, h.2⟩ ⟨n, h.1⟩) else 0

/-- Chunk s of the left factor at (b, c), when the chunk's first column is 1024k + 256s. -/
theorem leftChunk_apply (i : grid0.Coords) (k : ℕ) (x0 : Vec Ideal S64x8192 .f32) (s : Fin 4)
    (hoff : k0_off1 i (BitVec.ofNat 32 (256 * s.val)) 0 = 0 ∧
      k0_off1 i (BitVec.ofNat 32 (256 * s.val)) 1 = 1024 * k + 256 * s.val) (b : Fin 64) (c : Fin 256)
    (hb : 1024 * k + 256 * s.val + c.val < 8192) :
    leftChunk (F := Ideal) i s x0 (ix2 b c) = x0 (ix2 b ⟨1024 * k + 256 * s.val + c.val, hb⟩) := by
  unfold leftChunk
  show x0 _ = x0 _
  refine congrArg x0 (funext fun a => Fin.ext ?_)
  match a with
  | ⟨0, _⟩ => show k0_off1 i (BitVec.ofNat 32 (256 * s.val)) 0 + 1 * b.val = b.val; rw [hoff.1]; omega
  | ⟨1, _⟩ => show k0_off1 i (BitVec.ofNat 32 (256 * s.val)) 1 + 1 * c.val = 1024 * k + 256 * s.val + c.val; rw [hoff.2]; omega

/-- Chunk s of the right factor's block at (c, l). -/
theorem rightChunk_apply (x1 : Vec Ideal S1024x4096 .f32) (s : Fin 4) (c : Fin 256) (l : Fin 4096)
    (hb : 256 * s.val + c.val < 1024) :
    rightChunk (F := Ideal) s x1 (ix2 c l) = x1 (ix2 ⟨256 * s.val + c.val, hb⟩ l) := by
  unfold rightChunk
  show x1 _ = x1 _
  refine congrArg x1 (funext fun a => Fin.ext ?_)
  match a with
  | ⟨0, _⟩ => show 256 * s.val + 1 * c.val = 256 * s.val + c.val; omega
  | ⟨1, _⟩ => show 0 + 1 * l.val = l.val; omega

/-- One step's addend, with the blocks read off the arrays, as a sum over a range of naturals. -/
theorem chunk_sum (X : Vec Ideal S64x8192 .f32) (Bm : Vec Ideal S8192x8192 .f32) (i : grid0.Coords) (k j : ℕ)
    (hk : k < 8) (hj : j < 2) (x0 : Vec Ideal S64x8192 .f32) (x1 : Vec Ideal S1024x4096 .f32)
    (hx0 : ∀ (b : Fin 64) (u : Fin 8192), x0 (ix2 b u) = X (ix2 b u))
    (hx1 : ∀ (r : Fin 1024) (l : Fin 4096) (h1 : 1024 * k + r.val < 8192) (h2 : 4096 * j + l.val < 8192),
      x1 (ix2 r l) = Bm (ix2 ⟨1024 * k + r.val, h1⟩ ⟨4096 * j + l.val, h2⟩))
    (hoff : ∀ s : Fin 4, k0_off1 i (BitVec.ofNat 32 (256 * s.val)) 0 = 0 ∧
      k0_off1 i (BitVec.ofNat 32 (256 * s.val)) 1 = 1024 * k + 256 * s.val)
    (s : Fin 4) (sv : ℕ) (hsv : s.val = sv) (b : Fin 64) (l : Fin 4096) :
    (∑ c : Fin 256, leftChunk (F := Ideal) i s x0 (ix2 b c) * rightChunk (F := Ideal) s x1 (ix2 c l))
      = ∑ c ∈ Finset.range 256, term X Bm b (4096 * j + l.val) (1024 * k + (256 * sv + c)) := by
  subst hsv
  rw [← Fin.sum_univ_eq_sum_range (fun c => term X Bm b (4096 * j + l.val) (1024 * k + (256 * s.val + c))) 256]
  refine Finset.sum_congr rfl fun c _ => ?_
  have hs := s.isLt
  have hc := c.isLt
  have hl := l.isLt
  rw [leftChunk_apply i k x0 s (hoff s) b c (by omega), rightChunk_apply x1 s c l (by omega), hx0,
    hx1 _ _ (by show 1024 * k + (256 * s.val + c.val) < 8192; omega) (by omega)]
  unfold term
  rw [dif_pos ⟨by omega, by omega⟩]
  refine congrArg₂ (· * ·) (congrArg X ?_) rfl
  exact congrArg (ix2 b) (Fin.ext (by show 1024 * k + 256 * s.val + c.val = 1024 * k + (256 * s.val + c.val); omega))

/-- THE POINT'S ADDEND: the four steps add to the accumulator entry (b, l) the 1024 terms of the point's rows. -/
theorem fourSteps_apply (X : Vec Ideal S64x8192 .f32) (Bm : Vec Ideal S8192x8192 .f32) (i : grid0.Coords) (k j : ℕ)
    (hk : k < 8) (hj : j < 2) (x0 : Vec Ideal S64x8192 .f32) (x1 : Vec Ideal S1024x4096 .f32)
    (hx0 : ∀ (b : Fin 64) (u : Fin 8192), x0 (ix2 b u) = X (ix2 b u))
    (hx1 : ∀ (r : Fin 1024) (l : Fin 4096) (h1 : 1024 * k + r.val < 8192) (h2 : 4096 * j + l.val < 8192),
      x1 (ix2 r l) = Bm (ix2 ⟨1024 * k + r.val, h1⟩ ⟨4096 * j + l.val, h2⟩))
    (hoff : ∀ s : Fin 4, k0_off1 i (BitVec.ofNat 32 (256 * s.val)) 0 = 0 ∧
      k0_off1 i (BitVec.ofNat 32 (256 * s.val)) 1 = 1024 * k + 256 * s.val)
    (acc : Vec Ideal S64x4096 .f32) (b : Fin 64) (l : Fin 4096) :
    fourSteps (F := Ideal) i x0 x1 acc (ix2 b l)
      = acc (ix2 b l) + ∑ u ∈ Finset.range 1024, term X Bm b (4096 * j + l.val) (1024 * k + u) := by
  unfold fourSteps
  rw [step_apply, step_apply, step_apply, step_apply,
    chunk_sum X Bm i k j hk hj x0 x1 hx0 hx1 hoff 0 0 rfl b l, chunk_sum X Bm i k j hk hj x0 x1 hx0 hx1 hoff 1 1 rfl b l,
    chunk_sum X Bm i k j hk hj x0 x1 hx0 hx1 hoff 2 2 rfl b l, chunk_sum X Bm i k j hk hj x0 x1 hx0 hx1 hoff 3 3 rfl b l]
  exact Cert.Dplr.four_chunks (fun u => term X Bm b (4096 * j + l.val) (1024 * k + u)) (acc (ix2 b l))

/-- The eight points of a column block together add the whole contraction: 8 × 1024 consecutive terms. -/
theorem total_sum (X : Vec Ideal S64x8192 .f32) (Bm : Vec Ideal S8192x8192 .f32) (b : Fin 64) (n : ℕ) (hn : n < 8192) :
    (∑ s ∈ Finset.range 8, ∑ u ∈ Finset.range 1024, term X Bm b n (1024 * s + u))
      = ∑ k : Fin 8192, X (ix2 b k) * Bm (ix2 k ⟨n, hn⟩) := by
  rw [← Cert.Dplr.sum_range_blocks (term X Bm b n) 1024 8, show 1024 * 8 = 8192 from rfl,
    ← Fin.sum_univ_eq_sum_range (term X Bm b n) 8192]
  refine Finset.sum_congr rfl fun k _ => ?_
  unfold term
  rw [dif_pos ⟨hn, k.isLt⟩]

end Cert.KernelIdeal.Blocks

end
-- ==== Proof.HostSeed.lean ====
/-
  The seed of the streamed product, as the host operations before the launch compute it, read at an entry.

  The host forms h·a (a repeated down the rows), the 64×4 product h·q, the 4×8192 transpose of p, their product,
  and adds: at (b, n) that is h(b, n)·a(n) + ∑ᵣ (∑ⱼ h(b, j)·q(j, r))·p(n, r), with no algebra — each host product
  is the sum over its contracted coordinate by definition.
-/
import proofs.«101165_j9680856285214_2_alg».proof.Proof.Gen.KernelIdeal
import proofs.«101165_j9680856285214_2_alg».proof.Proof.LibPlainDot
import proofs.«101165_j9680856285214_2_alg».proof.Proof.Spec
import Idealize.ShloMosaic.Lib.Pipeline.Value
import Idealize.ShloMosaic.Lib.ValueIdx

noncomputable section

open scoped BigOperators
open Idealize.ShloMosaic Idealize.ShloMosaic.ValueIdx

namespace Cert.KernelIdeal.Blocks

open Cert.KernelIdeal Cert.KernelIdeal.Gen

variable {F : FTy → Type} [FloatOps F]

/-- The host operations before the launch, composed: the array the seed window is cut from. -/
def hostSeed (h : FVec F S64x8192 .f32) (a : FVec F S8192 .f32) (p q : FVec F S8192x4 .f32) : FVec F S64x8192 .f32 :=
  addf
    (mulf h (broadcastInDim S64x8192 ![0, 1] bcast_S1x8192_S64x8192_0_1 (broadcastInDim S1x8192 ![1] bcast_S8192_S1x8192_1 a)))
    (Host.dotGeneral dot_S64x4_S4x8192_S64x8192_1_0_0_1_n_n none
      (Host.dotGeneral dot_S64x8192_S8192x4_S64x4_1_0_0_1_n_n none h q)
      (transpose S4x8192 [1, 0] p transposes_S8192x4_S4x8192_1_0))

/-- The seed at (b, n). -/
theorem hostSeed_apply (h : FVec Ideal S64x8192 .f32) (a : FVec Ideal S8192 .f32) (p q : FVec Ideal S8192x4 .f32)
    (b : Fin 64) (n : Fin 8192) : (hostSeed h a p q (ix2 b n) : EReal) = Cert.Dplr.seedAt h a p q b n := by
  unfold hostSeed Cert.Dplr.seedAt
  rw [addf_apply, mulf_apply]
  congr 1
  · congr 1
    refine (broadcastInDim_apply ![0, 1] bcast_S1x8192_S64x8192_0_1 _ (ix2 b n) (ix2 (0 : Fin 1) n) ?_).trans ?_
    · intro ax
      match ax with
      | ⟨0, _⟩ => rfl
      | ⟨1, _⟩ => rfl
    refine broadcastInDim_apply ![1] bcast_S8192_S1x8192_1 a (ix2 (0 : Fin 1) n) (ix1 n) ?_
    intro ax
    match ax with
    | ⟨0, _⟩ => rfl
  · refine (Cert.PlainDot.dotGeneral_apply dot_S64x4_S4x8192_S64x8192_1_0_0_1_n_n rfl none .single _ _ b n).trans ?_
    refine Finset.sum_congr rfl fun r _ => ?_
    congr 1
    · exact Cert.PlainDot.dotGeneral_apply dot_S64x8192_S8192x4_S64x4_1_0_0_1_n_n rfl none .single h q b r
    · refine transpose_apply [1, 0] p transposes_S8192x4_S4x8192_1_0 (ix2 r n) (ix2 n r) ?_
      intro ax
      match ax with
      | ⟨0, _⟩ => rfl
      | ⟨1, _⟩ => rfl

end Cert.KernelIdeal.Blocks

end
-- ==== Proof.KernelBlocks.lean ====
/-
  The streamed product over the whole grid: what the result array holds after the run.

  The grid is 2 × 8: for each of the two column blocks j of the result (4096 columns each) the eight points
  k = 0 … 7 run in order. At k = 0 the accumulator takes block j of the seed and adds the point's 1024 terms; each
  later point adds its own 1024 terms to what the point before left; at k = 7 the accumulator is copied to the
  output block, which is then written back. So block j of the result ends at
      seed(b, 4096j + l) + ∑_{u < 8192} x(b, u)·B(u, 4096j + l),
  the thirty-two partial sums glued by associativity; the two blocks tile the result array.
-/
import proofs.«101165_j9680856285214_2_alg».proof.Proof.KernelStep
import proofs.«101165_j9680856285214_2_alg».proof.Proof.HostSeed
import proofs.«101165_j9680856285214_2_alg».proof.Proof.Gen.KernelIdeal.Value
import Idealize.ShloMosaic.Lib.Pipeline.Value
import Idealize.ShloMosaic.Lib.StableHlo.Run

noncomputable section

open scoped BigOperators
open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.Value

variable (m : (ℓ : Loc nD τ sig) → Buf (Elt Ideal) ℓ) (ρ : Dev nD → PrngReg)

/-! ## Where each window's block sits, and where each chunk of the left factor starts -/

/-- The block indices at grid point t = 8j + k: the left factor whole; the right factor's block (k, j); the seed's
    and the result's block (0, j). -/
theorem idx_facts : ∀ t : Fin cfg0.N,
    win0_0.index t (0 : Fin 2) = 0 ∧ win0_0.index t (1 : Fin 2) = 0
    ∧ win0_1.index t (0 : Fin 2) = t.val % 8 ∧ win0_1.index t (1 : Fin 2) = t.val / 8
    ∧ win0_2.index t (0 : Fin 2) = 0 ∧ win0_2.index t (1 : Fin 2) = t.val / 8
    ∧ win0_3.index t (0 : Fin 2) = 0 ∧ win0_3.index t (1 : Fin 2) = t.val / 8 :=
  (by decide +kernel : ∀ t : Fin grid0.N,
    win0_0.index t (0 : Fin 2) = 0 ∧ win0_0.index t (1 : Fin 2) = 0
    ∧ win0_1.index t (0 : Fin 2) = t.val % 8 ∧ win0_1.index t (1 : Fin 2) = t.val / 8
    ∧ win0_2.index t (0 : Fin 2) = 0 ∧ win0_2.index t (1 : Fin 2) = t.val / 8
    ∧ win0_3.index t (0 : Fin 2) = 0 ∧ win0_3.index t (1 : Fin 2) = t.val / 8)

/-- Chunk s of the left factor at point t = 8j + k starts at column 1024k + 256s. -/
theorem off_facts : ∀ (t : Fin cfg0.N) (s : Fin 4),
    k0_off1 (grid0.coords t) (BitVec.ofNat 32 (256 * s.val)) 0 = 0
    ∧ k0_off1 (grid0.coords t) (BitVec.ofNat 32 (256 * s.val)) 1 = 1024 * (t.val % 8) + 256 * s.val :=
  (by decide +kernel : ∀ (t : Fin grid0.N) (s : Fin 4),
    k0_off1 (grid0.coords t) (BitVec.ofNat 32 (256 * s.val)) 0 = 0
    ∧ k0_off1 (grid0.coords t) (BitVec.ofNat 32 (256 * s.val)) 1 = 1024 * (t.val % 8) + 256 * s.val)

/-! ## The blocks the body is handed, read off the arrays as the launch finds them -/

/-- The left factor's block is the whole array. -/
theorem iblk0_apply (c : Dev nD) (t : Fin cfg0.N) (b : Fin 64) (u : Fin 8192) :
    (iblk m c 0 t : Vec Ideal S64x8192 .f32) (ix2 b u) = V m c main_arg1 (ix2 b u) := by
  obtain ⟨e0, e1, -⟩ := idx_facts t
  unfold iblk
  rw [View.read_apply]
  show V m c main_arg1 _ = V m c main_arg1 _
  refine congrArg (V m c main_arg1) (funext fun a => Fin.ext ?_)
  match a with
  | ⟨0, _⟩ => show win0_0.index t (0 : Fin 2) * 64 + 1 * b.val = b.val; rw [e0]; omega
  | ⟨1, _⟩ => show win0_0.index t (1 : Fin 2) * 8192 + 1 * u.val = u.val; rw [e1]; omega

/-- The right factor's block at t = 8j + k: rows 1024k …, columns 4096j …. -/
theorem iblk1_apply (c : Dev nD) (t : Fin cfg0.N) (r : Fin 1024) (l : Fin 4096)
    (h1 : 1024 * (t.val % 8) + r.val < 8192) (h2 : 4096 * (t.val / 8) + l.val < 8192) :
    (iblk m c 1 t : Vec Ideal S1024x4096 .f32) (ix2 r l)
      = V m c main_arg5 (ix2 ⟨1024 * (t.val % 8) + r.val, h1⟩ ⟨4096 * (t.val / 8) + l.val, h2⟩) := by
  obtain ⟨-, -, e0, e1, -⟩ := idx_facts t
  unfold iblk
  rw [View.read_apply]
  show V m c main_arg5 _ = V m c main_arg5 _
  refine congrArg (V m c main_arg5) (funext fun a => Fin.ext ?_)
  match a with
  | ⟨0, _⟩ => show win0_1.index t (0 : Fin 2) * 1024 + 1 * r.val = 1024 * (t.val % 8) + r.val; rw [e0]; omega
  | ⟨1, _⟩ => show win0_1.index t (1 : Fin 2) * 4096 + 1 * l.val = 4096 * (t.val / 8) + l.val; rw [e1]; omega

/-- The seed's block at t = 8j + k: columns 4096j …. -/
theorem iblk2_apply (c : Dev nD) (t : Fin cfg0.N) (b : Fin 64) (l : Fin 4096) (h2 : 4096 * (t.val / 8) + l.val < 8192) :
    (iblk m c 2 t : Vec Ideal S64x4096 .f32) (ix2 b l) = V m c main_v6 (ix2 b ⟨4096 * (t.val / 8) + l.val, h2⟩) := by
  obtain ⟨-, -, -, -, e0, e1, -⟩ := idx_facts t
  unfold iblk
  rw [View.read_apply]
  show V m c main_v6 _ = V m c main_v6 _
  refine congrArg (V m c main_v6) (funext fun a => Fin.ext ?_)
  match a with
  | ⟨0, _⟩ => show win0_2.index t (0 : Fin 2) * 64 + 1 * b.val = b.val; rw [e0]; omega
  | ⟨1, _⟩ => show win0_2.index t (1 : Fin 2) * 4096 + 1 * l.val = 4096 * (t.val / 8) + l.val; rw [e1]; omega

/-- The seed array is the host operations' composed term of the arguments. -/
theorem seed_eq (c : Dev nD) :
    (V m c main_v6 : FVec Ideal S64x8192 .f32)
      = hostSeed (F := Ideal) (m ((c : Thread nD τ).loc main_arg0)) (m ((c : Thread nD τ).loc main_arg2))
          (m ((c : Thread nD τ).loc main_arg3)) (m ((c : Thread nD τ).loc main_arg4)) := by
  dsimp only [V, hostOps0]
  after_results
  rfl

/-! ## One point's addend, and the accumulator after each point -/

/-- The seed's block at point t, as the body is handed it. -/
abbrev seedBlk (c : Dev nD) (t : Fin cfg0.N) : Vec Ideal S64x4096 .f32 := iblk m c 2 t

/-- The first point of t's run of eight: 8·(t / 8). -/
def resetPt (t : Fin cfg0.N) : Fin cfg0.N := ⟨8 * (t.val / 8), lt_of_le_of_lt (Nat.mul_div_le t.val 8) t.isLt⟩

/-- What point n adds to the accumulator entry y = (b, l): its 1024 terms. -/
def addend (c : Dev nD) (n : ℕ) (y : S64x4096.Idx) : EReal :=
  ∑ u ∈ Finset.range 1024,
    term (V m c main_arg1) (V m c main_arg5) (y 0) (4096 * (n / 8) + (y 1).val) (1024 * (n % 8) + u)

/-- The four steps at point t add that point's addend. -/
theorem point_step (c : Dev nD) (t : Fin cfg0.N) (acc : Vec Ideal S64x4096 .f32) (y : S64x4096.Idx) :
    fourSteps (F := Ideal) (grid0.coords t) (iblk m c 0 t) (iblk m c 1 t) acc y = acc y + addend m c t.val y := by
  have hN : t.val < 16 := lt_of_lt_of_eq t.isLt (show cfg0.N = 16 from N_0)
  obtain ⟨b, l, rfl⟩ : ∃ (b : Fin 64) (l : Fin 4096), y = ix2 b l := ⟨y 0, y 1, eq_ix2 y⟩
  exact fourSteps_apply (V m c main_arg1) (V m c main_arg5) (grid0.coords t) (t.val % 8) (t.val / 8) (by omega) (by omega)
    (iblk m c 0 t) (iblk m c 1 t) (fun b u => iblk0_apply m c t b u) (fun r l h1 h2 => iblk1_apply m c t r l h1 h2)
    (off_facts t) acc b l

/-- At a point with k = 0 the accumulator ends at the seed block plus the point's addend, whatever it held. -/
theorem scratch_reset (c : Dev nD) (n : ℕ) (hb : n < cfg0.N) (h0 : n % 8 = 0) (acc : Vec Ideal S64x4096 .f32)
    (y : S64x4096.Idx) :
    scAt0_0 m c n hb acc y = seedBlk m c ⟨n, hb⟩ y + addend m c n y := by
  have h1 : ¬n % 8 = 7 := by omega
  unfold scAt0_0
  rw [dif_pos h0, dif_neg h1, sout_A, seed_apply]
  exact point_step m c ⟨n, hb⟩ _ y

/-- At a point with k > 0 the accumulator ends at what the point before left plus the point's addend. -/
theorem scratch_step (c : Dev nD) (n : ℕ) (hb : n < cfg0.N) (h0 : ¬n % 8 = 0) (acc : Vec Ideal S64x4096 .f32)
    (y : S64x4096.Idx) :
    scAt0_0 m c n hb acc y = acc y + addend m c n y := by
  unfold scAt0_0
  by_cases h1 : n % 8 = 7
  · rw [dif_neg h0, dif_pos h1, sout_C]
    exact point_step m c ⟨n, hb⟩ acc y
  · rw [dif_neg h0, dif_neg h1, sout_B]
    exact point_step m c ⟨n, hb⟩ acc y

/-- THE ACCUMULATOR after point t = 8j + k: the seed block j plus the addends of the points 8j … 8j + k. -/
theorem scratch_eq (c : Dev nD) (t : Fin cfg0.N) (y : S64x4096.Idx) :
    (outsAt0 m c t.val t.isLt).2 y
      = seedBlk m c (resetPt t) y + ∑ s ∈ Finset.range (t.val % 8 + 1), addend m c (8 * (t.val / 8) + s) y := by
  rw [soutsAt0_0_eq m c t]
  exact Pipeline.accAt_add_apply (fun n h => scAt0_0 m c n h (VS0_0.read (Elt Ideal) VS0_0.junk)) (scAt0_0 m c)
    (seedBlk m c (resetPt t)) (addend m c) (8 * (t.val / 8)) 7
    (fun h y => scratch_reset m c _ h (by omega) _ y)
    (fun n h acc y hlt hle => scratch_step m c n h (by omega) acc y)
    (t.val % 8) (by omega) _ y

/-! ## The result array -/

/-- The three arrays the launch reads, as it finds them: the left factor, the right factor, the seed. -/
abbrev leftArr (c : Dev nD) : FVec Ideal S64x8192 .f32 := V m c main_arg1
abbrev rightArr (c : Dev nD) : FVec Ideal S8192x8192 .f32 := V m c main_arg5
abbrev seedArr (c : Dev nD) : FVec Ideal S64x8192 .f32 := V m c main_v6

/-- What the result array ends holding, over the arrays as the launch finds them: the seed plus the whole product. -/
def result (c : Dev nD) : FVec Ideal S64x8192 .f32 :=
  fun i => seedArr m c i + ∑ k : Fin 8192, leftArr m c (ix2 (i 0) k) * rightArr m c (ix2 k (i 1))

/-- WHAT A WRITING POINT WRITES BACK (k = 7): block j of that array. -/
theorem flushed_eq (c : Dev nD) (t : Fin cfg0.N) (hf : (cfg0.win 3).flush t = true) :
    (dats m 0 c).flushed 3 t = ((cfg0.win 3).blk t).view.read (Elt Ideal) (result m c) := by
  have hN : t.val < 16 := lt_of_lt_of_eq t.isLt (show cfg0.N = 16 from N_0)
  have h1 : t.val % 8 = 7 := (flush0_3 t).mp hf
  have h0 : ¬t.val % 8 = 0 := by omega
  have e : (outsAt0 m c t.val t.isLt).1 = (outsAt0 m c t.val t.isLt).2 := by
    rw [outsAt0_C m c t h0 h1]
    dsimp only
    rw [out_C, sout_C]
  rw [flushed3 m c t, e]
  obtain ⟨-, -, -, -, -, -, e0, e1⟩ := idx_facts t
  funext y
  show (outsAt0 m c t.val t.isLt).2 y = result m c (((cfg0.win 3).blk t).view.emb y)
  obtain ⟨b, l, rfl⟩ : ∃ (b : Fin 64) (l : Fin 4096), y = ix2 b l := ⟨y 0, y 1, eq_ix2 y⟩
  have hl := l.isLt
  have hemb : ((cfg0.win 3).blk t).view.emb (ix2 b l) = ix2 b ⟨4096 * (t.val / 8) + l.val, by omega⟩ := by
    funext a
    apply Fin.ext
    match a with
    | ⟨0, _⟩ => show win0_3.index t (0 : Fin 2) * 64 + 1 * b.val = b.val; rw [e0]; omega
    | ⟨1, _⟩ => show win0_3.index t (1 : Fin 2) * 4096 + 1 * l.val = 4096 * (t.val / 8) + l.val; rw [e1]; omega
  rw [hemb, scratch_eq m c t (ix2 b l), h1]
  unfold result
  refine congrArg₂ (· + ·) ?_ ?_
  · refine (iblk2_apply m c (resetPt t) b l (by show 4096 * (8 * (t.val / 8) / 8) + l.val < 8192; omega)).trans ?_
    exact congrArg (V m c main_v6) (congrArg (ix2 b) (Fin.ext (by
      show 4096 * (8 * (t.val / 8) / 8) + l.val = 4096 * (t.val / 8) + l.val; omega)))
  · refine (Finset.sum_congr rfl fun s hs => ?_).trans
      (total_sum (V m c main_arg1) (V m c main_arg5) b (4096 * (t.val / 8) + l.val) (by omega))
    have hs8 : s < 8 := Finset.mem_range.mp hs
    unfold addend
    rw [show (8 * (t.val / 8) + s) / 8 = t.val / 8 by omega, show (8 * (t.val / 8) + s) % 8 = s by omega]

/-- An entry of the result array is in point t's block iff each coordinate is in the block's range. -/
theorem mem_blk3 (t : Fin cfg0.N) (i : S64x8192.Idx) :
    i ∈ ((cfg0.win 3).blk t).view.set ↔ ∀ a : Fin 2, win0_3.index t a * S64x4096.size a ≤ (i a).val
      ∧ (i a).val < win0_3.index t a * S64x4096.size a + S64x4096.size a := by
  show i ∈ ((View.whole main_v7).slice (win0_3.rect t)).set ↔ _
  rw [View.set_slice_whole, Rect.mem_set_unit]
  exact Iff.rfl

/-- Every entry (b, n) of the result array is in the block written at point 8·(n / 4096) + 7. -/
theorem cover (i : S64x8192.Idx) :
    ∃ t : Fin cfg0.N, (cfg0.win 3).flush t = true ∧ i ∈ ((cfg0.win 3).blk t).view.set := by
  have hi0 : (i 0).val < 64 := (i 0).isLt
  have hi1 : (i 1).val < 8192 := (i 1).isLt
  have hN : cfg0.N = 16 := N_0
  let t : Fin cfg0.N := ⟨8 * ((i 1).val / 4096) + 7, by rw [hN]; omega⟩
  have ht : t.val = 8 * ((i 1).val / 4096) + 7 := rfl
  obtain ⟨-, -, -, -, -, -, e0, e1⟩ := idx_facts t
  refine ⟨t, (flush0_3 t).mpr (by rw [ht]; omega), ?_⟩
  rw [mem_blk3]
  intro a
  match a with
  | ⟨0, _⟩ =>
    show win0_3.index t (0 : Fin 2) * 64 ≤ (i 0).val ∧ (i 0).val < win0_3.index t (0 : Fin 2) * 64 + 64
    rw [e0]; omega
  | ⟨1, _⟩ =>
    show win0_3.index t (1 : Fin 2) * 4096 ≤ (i 1).val ∧ (i 1).val < win0_3.index t (1 : Fin 2) * 4096 + 4096
    rw [e1, ht]; omega

/-- THE RESULT ARRAY after the run. -/
theorem final (c : Dev nD) : (dats m 0 c).arrAt 3 cfg0.N = result m c :=
  (dats m 0 c).arrAt_eq_of_cover 3 (result m c) (fun t hf => flushed_eq m c t hf) cover

/-- Over the arguments as launched it is the specification's seeded array. -/
theorem result_eq (c : Dev nD) :
    result m c = Cert.Dplr.streamOut (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) := by
  funext i
  obtain ⟨b, n, rfl⟩ : ∃ (b : Fin 64) (n : Fin 8192), i = ix2 b n := ⟨i 0, i 1, eq_ix2 i⟩
  show seedArr m c (ix2 b n) + ∑ k : Fin 8192, leftArr m c (ix2 b k) * rightArr m c (ix2 k n)
    = Cert.Dplr.streamAt _ _ _ _ _ _ b n
  unfold Cert.Dplr.streamAt
  have e1 : seedArr m c = hostSeed (F := Ideal) (m ((c : Thread nD τ).loc main_arg0)) (m ((c : Thread nD τ).loc main_arg2))
      (m ((c : Thread nD τ).loc main_arg3)) (m ((c : Thread nD τ).loc main_arg4)) := seed_eq m c
  have e2 : leftArr m c = m ((c : Thread nD τ).loc main_arg1) := V_main_arg1 m c
  have e3 : rightArr m c = m ((c : Thread nD τ).loc main_arg5) := V_main_arg5 m c
  rw [e1, e2, e3, hostSeed_apply]

/-- THE KERNEL'S RUN, READ: every weakly fair execution terminates with the result array at the specification's
    seeded array of the arguments as launched, and the arguments unchanged. -/
theorem run : θ_run defs (onTc (τ := τ) (main (F := Ideal))) ⟨m, fun _ => 0, ρ⟩ fun r => ∀ c : Dev nD,
      r.2.mem ((c : Thread nD τ).loc main_v7)
          = Cert.Dplr.streamOut (m ((c : Thread nD τ).loc main_arg0)) (m ((c : Thread nD τ).loc main_arg1))
              (m ((c : Thread nD τ).loc main_arg2)) (m ((c : Thread nD τ).loc main_arg3))
              (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans ((final m c).trans (result_eq m c)), (h c).2⟩)
    (run_blocks m ρ)

end Cert.KernelIdeal.Blocks

end
-- ==== Proof.RefTerm.lean ====
/-
  The reference's result as one composed term of its six argument arrays.

  The reference forms the diagonal matrix D(n, j) = [n = j]·a(n) — a comparison of the row counter (plus zero) with
  the column counter selects between a, repeated along rows, and zero —, adds to it the rank-4 product p·qᵀ,
  transposes the sum, multiplies h by it, and adds x·B. Each stage is named here so that it can be read at an index
  one stage at a time.
-/
import proofs.«101165_j9680856285214_2_alg».proof.Proof.Gen.ReferenceIdeal

noncomputable section

namespace Cert.RefRun

open Cert.ReferenceIdeal Cert.ReferenceIdeal.Gen Idealize.ShloMosaic

variable {F : FTy → Type} [FloatOps F]

/-- The test "row counter plus zero equals column counter", entry by entry. -/
def onDiag : IVec S8192x8192 1 :=
  cmpi .eq
    (addi (iotaInDim S8192x8192 32 0) (broadcastInDim S8192x8192 ![] bcast_S_S8192x8192 (constantI S_ 32 0#32)))
    (iotaInDim S8192x8192 32 1)

/-- The vector a as a column, repeated along every row: entry (n, j) is a(n). -/
def rowsOf (a : FVec F S8192 .f32) : FVec F S8192x8192 .f32 :=
  broadcastInDim S8192x8192 ![0, 1] bcast_S8192x1_S8192x8192_0_1
    (broadcastInDim S8192x1 ![0] bcast_S8192_S8192x1_0
      (pad S8192 ![0] ![0] ![0] a (constant S_ .f32 0x00000000#32 : FVec F S_ .f32) pads_S8192_S8192_000 h_S_))

/-- The zero matrix: the scalar zero repeated at every entry. -/
def zeroMat : FVec F S8192x8192 .f32 :=
  broadcastInDim S8192x8192 ![] bcast_S_S8192x8192 (constant S_ .f32 0x00000000#32 : FVec F S_ .f32)

/-- The diagonal matrix: a(n) where the test holds, zero elsewhere. -/
def diagMat (a : FVec F S8192 .f32) : FVec F S8192x8192 .f32 :=
  select onDiag (rowsOf a) zeroMat

/-- The rank-4 product p·qᵀ. -/
def lowRank (p q : FVec F S8192x4 .f32) : FVec F S8192x8192 .f32 :=
  Host.dotGeneral dot_S8192x4_S4x8192_S8192x8192_1_0_0_1_n_n none p
    (transpose S4x8192 [1, 0] q transposes_S8192x4_S4x8192_1_0)

/-- The dense operator: diagonal plus rank-4 product. -/
def denseMat (a : FVec F S8192 .f32) (p q : FVec F S8192x4 .f32) : FVec F S8192x8192 .f32 :=
  addf (diagMat a) (lowRank p q)

/-- The result: h times the transposed dense operator, plus x times B. -/
def outTerm (h x : FVec F S64x8192 .f32) (a : FVec F S8192 .f32) (p q : FVec F S8192x4 .f32)
    (B : FVec F S8192x8192 .f32) : FVec F S64x8192 .f32 :=
  addf
    (Host.dotGeneral dot_S64x8192_S8192x8192_S64x8192_1_0_0_1_n_n none h
      (transpose S8192x8192 [1, 0] (denseMat a p q) transposes_S8192x8192_S8192x8192_1_0))
    (Host.dotGeneral dot_S64x8192_S8192x8192_S64x8192_1_0_0_1_n_n none x B)

end Cert.RefRun

end
-- ==== Proof.RefOps.lean ====
/-
  The reference program as one straight line of host operations, and what its run leaves in its result.

  The program's two outlined helper functions are written out at their call sites, which makes the program a list
  of twenty operations; the run of such a list ends with every buffer at the fold of the operations over the launch
  contents, and the fold at the result buffer is the operations' composed term of the six argument arrays.
-/
import proofs.«101165_j9680856285214_2_alg».proof.Proof.RefTerm
import Idealize.ShloMosaic.Lib.StableHlo.Run

noncomputable section

namespace Cert.RefRun

open Cert.ReferenceIdeal Cert.ReferenceIdeal.Gen Idealize.ShloMosaic Idealize.ShloMosaic.TcCoe Idealize.SL.Sem
  Idealize.ShloMosaic.StableHlo

variable {F : FTy → Type} [FloatOps F]

/-! ## The program as a list -/

/-- The twenty operations in order: ten of the diagonal helper, three of the selection helper it calls, seven of the
    main function. -/
abbrev ops : List (HloOp τ sig (Elt F)) :=
  [ TRef.nullary main_call0.cst (constant S_ .f32 0x00000000#32),
    TRef.binary (.of main_arg2 : TRef sig ⟨S8192, .f32⟩) main_call0.cst main_call0.v0
      (fun x v => pad S8192 ![0] ![0] ![0] x v pads_S8192_S8192_000 h_S_),
    TRef.nullary main_call0.v1 (iotaInDim S8192x8192 32 0),
    TRef.nullary main_call0.v2 (iotaInDim S8192x8192 32 1),
    TRef.nullary main_call0.c (constantI S_ 32 0#32),
    TRef.unary main_call0.c main_call0.v3 (broadcastInDim S8192x8192 ![] bcast_S_S8192x8192),
    TRef.binary main_call0.v1 main_call0.v3 main_call0.v4 addi,
    TRef.binary main_call0.v4 main_call0.v2 main_call0.v5 (cmpi .eq),
    TRef.unary main_call0.v0 main_call0.v6 (broadcastInDim S8192x1 ![0] bcast_S8192_S8192x1_0),
    TRef.nullary main_call0.cst_0 (constant S_ .f32 0x00000000#32),
    TRef.unary main_call0.v6 main_call0.call0.v0 (broadcastInDim S8192x8192 ![0, 1] bcast_S8192x1_S8192x8192_0_1),
    TRef.unary main_call0.cst_0 main_call0.call0.v1 (broadcastInDim S8192x8192 ![] bcast_S_S8192x8192),
    TRef.ternary main_call0.v5 main_call0.call0.v0 main_call0.call0.v1 main_call0.call0.v2 select,
    unary main_arg4 main_v1 ((transpose S4x8192 [1, 0] · transposes_S8192x4_S4x8192_1_0) : (⟨S8192x4, .f32⟩ : BufTy).Contents (Elt F) → (⟨S4x8192, .f32⟩ : BufTy).Contents (Elt F)),
    binary main_arg3 main_v1 main_v2 ((fun l r => Host.dotGeneral dot_S8192x4_S4x8192_S8192x8192_1_0_0_1_n_n none l r) : (⟨S8192x4, .f32⟩ : BufTy).Contents (Elt F) → (⟨S4x8192, .f32⟩ : BufTy).Contents (Elt F) → (⟨S8192x8192, .f32⟩ : BufTy).Contents (Elt F)),
    binary main_v0 main_v2 main_v3 (addf : (⟨S8192x8192, .f32⟩ : BufTy).Contents (Elt F) → (⟨S8192x8192, .f32⟩ : BufTy).Contents (Elt F) → (⟨S8192x8192, .f32⟩ : BufTy).Contents (Elt F)),
    unary main_v3 main_v4 ((transpose S8192x8192 [1, 0] · transposes_S8192x8192_S8192x8192_1_0) : (⟨S8192x8192, .f32⟩ : BufTy).Contents (Elt F) → (⟨S8192x8192, .f32⟩ : BufTy).Contents (Elt F)),
    binary main_arg0 main_v4 main_v5 ((fun l r => Host.dotGeneral dot_S64x8192_S8192x8192_S64x8192_1_0_0_1_n_n none l r) : (⟨S64x8192, .f32⟩ : BufTy).Contents (Elt F) → (⟨S8192x8192, .f32⟩ : BufTy).Contents (Elt F) → (⟨S64x8192, .f32⟩ : BufTy).Contents (Elt F)),
    binary main_arg1 main_arg5 main_v6 ((fun l r => Host.dotGeneral dot_S64x8192_S8192x8192_S64x8192_1_0_0_1_n_n none l r) : (⟨S64x8192, .f32⟩ : BufTy).Contents (Elt F) → (⟨S8192x8192, .f32⟩ : BufTy).Contents (Elt F) → (⟨S64x8192, .f32⟩ : BufTy).Contents (Elt F)),
    binary main_v5 main_v6 main_v7 (addf : (⟨S64x8192, .f32⟩ : BufTy).Contents (Elt F) → (⟨S64x8192, .f32⟩ : BufTy).Contents (Elt F) → (⟨S64x8192, .f32⟩ : BufTy).Contents (Elt F)) ]

set_option maxRecDepth 1024 in
/-- The main function is that straight line: with the two helpers' definitions unfolded at their calls, both sides are
    one chain of steps once sequencing is reassociated. -/
theorem main_eq (c : Dev nD) : main (F := F) c = seq ops := by
  simp only [main, fn_diag.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., nullary_bufs_sub .., nullary_bufs_sub .., nullary_bufs_sub .., unary_bufs_sub ..,
    binary_bufs_sub .., binary_bufs_sub .., unary_bufs_sub .., nullary_bufs_sub .., unary_bufs_sub .., unary_bufs_sub ..,
    ternary_bufs_sub .., unary_bufs_sub .., binary_bufs_sub .., binary_bufs_sub .., unary_bufs_sub .., binary_bufs_sub ..,
    binary_bufs_sub .., binary_bufs_sub ..⟩

/-- Every weakly fair execution of the main function terminates, and every buffer ends at the operations' fold over the
    launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The fold at the result and at the arguments -/

/-- The fold at the result buffer is the composed term of the arguments' contents: each operation's result at its own
    buffer is its function of its operands' contents, and at any other buffer what was there. -/
theorem out_eq (V : Valuation τ sig (Elt F)) :
    after ops V (main_v7 : DevRef τ sig)
      = outTerm (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  after_results
  rfl

theorem arg0_eq (V : Valuation τ sig (Elt F)) : after ops V (main_arg0 : DevRef τ sig) = V (main_arg0 : DevRef τ sig) := by
  after_results
theorem arg1_eq (V : Valuation τ sig (Elt F)) : after ops V (main_arg1 : DevRef τ sig) = V (main_arg1 : DevRef τ sig) := by
  after_results
theorem arg2_eq (V : Valuation τ sig (Elt F)) : after ops V (main_arg2 : DevRef τ sig) = V (main_arg2 : DevRef τ sig) := by
  after_results
theorem arg3_eq (V : Valuation τ sig (Elt F)) : after ops V (main_arg3 : DevRef τ sig) = V (main_arg3 : DevRef τ sig) := by
  after_results
theorem arg4_eq (V : Valuation τ sig (Elt F)) : after ops V (main_arg4 : DevRef τ sig) = V (main_arg4 : DevRef τ sig) := by
  after_results
theorem arg5_eq (V : Valuation τ sig (Elt F)) : after ops V (main_arg5 : DevRef τ sig) = V (main_arg5 : DevRef τ sig) := by
  after_results

/-- Every weakly fair execution of the main function terminates with the result at the composed term of the arguments'
    launch contents and the arguments unchanged. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v7)
          = outTerm (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v7).trans (out_eq _), (h c main_arg0).trans (arg0_eq _),
      (h c main_arg1).trans (arg1_eq _), (h c main_arg2).trans (arg2_eq _), (h c main_arg3).trans (arg3_eq _),
      (h c main_arg4).trans (arg4_eq _), (h c main_arg5).trans (arg5_eq _)⟩)
    (run_fold m ρ)

end Cert.RefRun

end
-- ==== Proof.RefRead.lean ====
/-
  The reference's composed term read at one entry.

  Stage by stage: the comparison of the counters holds exactly on the diagonal (the counters stay below 8192, far
  from the 32-bit wrap, and adding the zero word changes nothing); a, padded by nothing, made a column and repeated
  along rows, reads a(n) at (n, j); the selected matrix is therefore [n = j]·a(n); a transposed matrix read at
  (r, j) is the matrix at (j, r); each matrix product read at an entry is the sum over its contracted coordinate.
  Put together, the term at (b, n) is the specification's entry, with the summands in the same order — no law of
  arithmetic and no finiteness is used.
-/
import proofs.«101165_j9680856285214_2_alg».proof.Proof.RefTerm
import proofs.«101165_j9680856285214_2_alg».proof.Proof.Spec
import proofs.«101165_j9680856285214_2_alg».proof.Proof.LibPlainDot
import Idealize.ShloMosaic.Lib.KernelVsHost
import Idealize.ShloMosaic.Lib.IdealHost
import Idealize.ShloMosaic.Lib.ValueLayout
import Idealize.ShloMosaic.Lib.Affine

noncomputable section

open scoped BigOperators

namespace Cert.RefRun

open Cert.ReferenceIdeal Cert.ReferenceIdeal.Gen Idealize.ShloMosaic Idealize.ShloMosaic.ValueIdx

/-! ## The diagonal test -/

/-- Two counters below 8192, the first with the zero word added, are equal as 32-bit words exactly when they are
    equal. -/
theorem counter_eq_iff (n j : Fin 8192) :
    (IntOp.addi (BitVec.ofNat 32 n.val) 0#32 = BitVec.ofNat 32 j.val) ↔ n = j := by
  show (BitVec.ofNat 32 n.val + 0#32 = BitVec.ofNat 32 j.val) ↔ n = j
  rw [BitVec.add_zero]
  constructor
  · intro h
    have h' := congrArg BitVec.toNat h
    rw [BitVec.toNat_ofNat, BitVec.toNat_ofNat] at h'
    have hn := n.isLt
    have hj := j.isLt
    rw [Nat.mod_eq_of_lt (by omega), Nat.mod_eq_of_lt (by omega)] at h'
    exact Fin.ext h'
  · rintro rfl; rfl

/-- The test holds at (n, j) exactly when n = j. -/
theorem onDiag_apply (n j : Fin 8192) : onDiag (ix2 n j) = 1#1 ↔ n = j := by
  unfold onDiag
  show IntOp.cmpi .eq
      (IntOp.addi (iotaInDim S8192x8192 32 0 (ix2 n j))
        (broadcastInDim S8192x8192 ![] bcast_S_S8192x8192 (constantI S_ 32 0#32) (ix2 n j)))
      (iotaInDim S8192x8192 32 1 (ix2 n j)) = 1#1 ↔ n = j
  rw [IntOp.cmpi_eq, iotaInDim_apply, iotaInDim_apply, broadcastInDim_scalar_apply, constantI_apply]
  exact counter_eq_iff n j

/-! ## The diagonal matrix -/

/-- The repeated column reads a(n) at (n, j). -/
theorem rowsOf_apply (a : FVec Ideal S8192 .f32) (n j : Fin 8192) : rowsOf a (ix2 n j) = a (ix1 n) := by
  unfold rowsOf
  refine (broadcastInDim_apply ![0, 1] bcast_S8192x1_S8192x8192_0_1 _ (ix2 n j) (ix2 n (0 : Fin 1)) ?_).trans ?_
  · intro ax
    match ax with
    | ⟨0, _⟩ => rfl
    | ⟨1, _⟩ => rfl
  refine (broadcastInDim_apply ![0] bcast_S8192_S8192x1_0 _ (ix2 n (0 : Fin 1)) (ix1 n) ?_).trans ?_
  · intro ax
    match ax with
    | ⟨0, _⟩ => rfl
  refine pad_apply_of_inside ![0] ![0] ![0] a _ pads_S8192_S8192_000 h_S_ (ix1 n) (ix1 n) ?_
  intro ax
  match ax with
  | ⟨0, _⟩ =>
    show n.val = 0 + n.val * (0 + 1)
    omega

/-- The zero matrix reads zero everywhere. -/
theorem zeroMat_apply (i : S8192x8192.Idx) : ((zeroMat (F := Ideal)) i : EReal) = 0 := by
  unfold zeroMat
  rw [broadcastInDim_scalar_apply, constant_apply, Ideal.ofBits_zero_f32]

/-- The diagonal matrix reads a(n) on the diagonal and zero off it. -/
theorem diagMat_apply (a : FVec Ideal S8192 .f32) (n j : Fin 8192) :
    (diagMat a (ix2 n j) : EReal) = if n = j then a (ix1 n) else 0 := by
  unfold diagMat
  rw [select_apply, rowsOf_apply, zeroMat_apply]
  by_cases h : n = j
  · rw [if_pos h, (onDiag_apply n j).mpr h, select_one]
  · rw [if_neg h, eq_zero_of_ne_one (fun h1 => h ((onDiag_apply n j).mp h1)), select_zero]

/-! ## The rank-4 product and the dense operator -/

/-- The rank-4 product at (n, j): the sum over r of p(n, r)·q(j, r). -/
theorem lowRank_apply (p q : FVec Ideal S8192x4 .f32) (n j : Fin 8192) :
    lowRank p q (ix2 n j) = ∑ r : Fin 4, p (ix2 n r) * q (ix2 j r) := by
  unfold lowRank
  refine (Cert.PlainDot.dotGeneral_apply dot_S8192x4_S4x8192_S8192x8192_1_0_0_1_n_n rfl none .single p _ n j).trans ?_
  refine Finset.sum_congr rfl fun r _ => ?_
  congr 1
  refine transpose_apply [1, 0] q transposes_S8192x4_S4x8192_1_0 (ix2 r j) (ix2 j r) ?_
  intro b
  match b with
  | ⟨0, _⟩ => rfl
  | ⟨1, _⟩ => rfl

/-- The dense operator at (n, j) is the specification's entry. -/
theorem denseMat_apply (a : FVec Ideal S8192 .f32) (p q : FVec Ideal S8192x4 .f32) (n j : Fin 8192) :
    (denseMat a p q (ix2 n j) : EReal) = Cert.Dplr.dense a p q n j := by
  unfold denseMat Cert.Dplr.dense
  rw [addf_apply, diagMat_apply, lowRank_apply]

/-! ## The result -/

/-- The composed term at (b, n) is the specification's result there. -/
theorem outTerm_apply (h x : FVec Ideal S64x8192 .f32) (a : FVec Ideal S8192 .f32) (p q : FVec Ideal S8192x4 .f32)
    (B : FVec Ideal S8192x8192 .f32) (b : Fin 64) (n : Fin 8192) :
    (outTerm h x a p q B (ix2 b n) : EReal) = Cert.Dplr.denseAt h x a p q B b n := by
  unfold outTerm Cert.Dplr.denseAt
  rw [addf_apply]
  congr 1
  · refine (Cert.PlainDot.dotGeneral_apply dot_S64x8192_S8192x8192_S64x8192_1_0_0_1_n_n rfl none .single h _ b n).trans ?_
    refine Finset.sum_congr rfl fun j _ => ?_
    congr 1
    refine (transpose_apply [1, 0] (denseMat a p q) transposes_S8192x8192_S8192x8192_1_0 (ix2 j n) (ix2 n j) ?_).trans ?_
    · intro ax
      match ax with
      | ⟨0, _⟩ => rfl
      | ⟨1, _⟩ => rfl
    exact denseMat_apply a p q n j
  · exact Cert.PlainDot.dotGeneral_apply dot_S64x8192_S8192x8192_S64x8192_1_0_0_1_n_n rfl none .single x B b n

/-- The composed term is the specification's result array. -/
theorem outTerm_eq (h x : FVec Ideal S64x8192 .f32) (a : FVec Ideal S8192 .f32) (p q : FVec Ideal S8192x4 .f32)
    (B : FVec Ideal S8192x8192 .f32) : outTerm h x a p q B = Cert.Dplr.denseOut h x a p q B := by
  funext i
  obtain ⟨b, n, rfl⟩ : ∃ (b : Fin 64) (n : Fin 8192), i = ix2 b n := ⟨i 0, i 1, eq_ix2 i⟩
  exact outTerm_apply h x a p q B b n

end Cert.RefRun

end
-- ==== Proof.RefRun.lean ====
/-
  The reference's run, with its result stated through the specification.

  Every weakly fair execution of the reference terminates; its result buffer then holds, entry by entry, the
  diagonal-plus-low-rank update of the launch contents of its six arguments, and the arguments are unchanged: the
  run leaves the operations' composed term in the result, and that term is the specification's array.
-/
import proofs.«101165_j9680856285214_2_alg».proof.Proof.RefOps
import proofs.«101165_j9680856285214_2_alg».proof.Proof.RefRead

noncomputable section

namespace Cert.RefRun

open Cert.ReferenceIdeal Idealize.ShloMosaic Idealize.ShloMosaic.TcCoe Idealize.SL.Sem Idealize.ShloMosaic.StableHlo

/-- At the ideal values, from any memory with zero counters: every weakly fair execution of the reference terminates
    with the result at the specification's array of the arguments' launch contents and the arguments unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ fun r => ∀ c : Dev Cert.ReferenceIdeal.nD,
      r.2.mem ((c.tc : Thread nD τ).loc main_v7)
          = Cert.Dplr.denseOut (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run (Cert.ReferenceIdeal.defs (F := Ideal)) _ _).mono
    (fun _ h c => ⟨(h c).1.trans (outTerm_eq _ _ _ _ _ _), (h c).2⟩)
    (run_term (F := Ideal) m ρ)

end Cert.RefRun

end
-- ==== Proof.Finite.lean ====
/-
  The precondition read back: every entry of every input is a real number.

  The precondition is the conjunction, over the six inputs, of "all entries satisfy |x| < +∞". An "all" is a
  reduction by "and" from 1, which is 1 only if every entry's comparison is 1; and an extended real whose absolute
  value max(x, −x) is below +∞ is neither +∞ nor −∞, hence a real.
-/
import proofs.«101165_j9680856285214_2_alg».proof.Pre_finite_inputs
import Idealize.ShloMosaic.PureOps.Ideal
import Idealize.ShloMosaic.Lib.ReduceAll
import Idealize.ShloMosaic.Lib.ValueIdx

noncomputable section

open Idealize.ShloMosaic

namespace Cert.Finite

open Cert.Pre_finite_inputs

/-- An extended real whose absolute value is below +∞ is a real. -/
theorem real_of_abs_lt_top (y : EReal) (h : max y (-y) < ⊤) : ∃ r : ℝ, y = r := by
  induction y using EReal.rec with
  | bot => simp at h
  | coe r => exact ⟨r, rfl⟩
  | top => simp at h

/-- The bit pattern the inputs are compared with is +∞. -/
theorem inf_word : Ideal.ofBits .f32 0x7F800000#32 = (⊤ : EReal) := by
  simp [Ideal.ofBits, Ideal.ieee]

/-- One entry's comparison being 1 says that the entry is a real. -/
theorem elem {s : Shape} (x : FVec Ideal s .f32) (bc : (⟨0, ![]⟩ : Shape).BroadcastsInDim s ![]) (i : s.Idx)
    (h : cmpf .olt (Host.absf x) (broadcastInDim s ![] bc (constant (F := Ideal) ⟨0, ![]⟩ .f32 0x7F800000#32)) i = 1#1) :
    ∃ r : ℝ, x i = r := by
  apply real_of_abs_lt_top
  simp only [cmpf, Host.absf, absf, broadcastInDim, constant] at h
  change Ideal.cmp .olt (max (x i) (-(x i))) (Ideal.ofBits .f32 0x7F800000#32) = 1#1 at h
  rw [inf_word] at h
  unfold Ideal.cmp at h
  by_contra hc
  simp [hc] at h

instance : Subsingleton S_.Idx := ⟨fun a b => funext fun d => d.elim0⟩

variable [Facts]

/-- The precondition holding says that all six inputs are real at every entry. -/
theorem real_of_pre (a0 a1 : FVec Ideal S64x8192 .f32) (a2 : FVec Ideal S8192 .f32) (a3 a4 : FVec Ideal S8192x4 .f32)
    (a5 : FVec Ideal S8192x8192 .f32) (h : fn (F := Ideal) a0 a1 a2 a3 a4 a5 = fun _ => 1#1) :
    (∀ i, ∃ r : ℝ, a0 i = r) ∧ (∀ i, ∃ r : ℝ, a1 i = r) ∧ (∀ i, ∃ r : ℝ, a2 i = r) ∧ (∀ i, ∃ r : ℝ, a3 i = r)
      ∧ (∀ i, ∃ r : ℝ, a4 i = r) ∧ (∀ i, ∃ r : ℝ, a5 i = r) := by
  have h0 := congrFun h ValueIdx.ix0
  dsimp only [fn, fn_part1] at h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨fun i => elem a0 _ i (Host.reduce_andi_all _ _ _ _ _ e0 i), fun i => elem a1 _ i (Host.reduce_andi_all _ _ _ _ _ e1 i),
    fun i => elem a2 _ i (Host.reduce_andi_all _ _ _ _ _ e2 i), fun i => elem a3 _ i (Host.reduce_andi_all _ _ _ _ _ e3 i),
    fun i => elem a4 _ i (Host.reduce_andi_all _ _ _ _ _ e4 i), fun i => elem a5 _ i (Host.reduce_andi_all _ _ _ _ _ e5 i)⟩

end Cert.Finite

end
-- ==== Proof.lean ====
/-
  The diagonal-plus-low-rank state update: a streamed kernel against the dense reference.

  The reference materialises the dense operator A(n, j) = [n = j]·a(n) + ∑ᵣ p(n, r)·q(j, r) and returns
  h·Aᵀ + x·B. The kernel never forms A: the host computes the seed h(b, n)·a(n) + ∑ᵣ (∑ⱼ h(b, j)·q(j, r))·p(n, r)
  through the rank-4 bottleneck, and one launch streams x·B over a 2 × 8 grid, adding 256 columns at a time to an
  accumulator that starts at the seed. Over the extended reals:
    * the thirty-two partial sums of x·B are the whole sum by associativity and commutativity alone
      (the kernel's run read block by block, the accumulator followed from point to point);
    * the seed equals ∑ⱼ h(b, j)·A(n, j) by distributivity, which holds because the inputs are finite —
      the one place where the precondition is used;
    * the reference's straight line, its helper functions inlined, is the dense formula with no algebra.
  The three frames: the two kernels' are the generated frame certificates; the reference's is its run with the
  result dropped. The kernel's idealization rewrote nothing, so there is nothing to preserve.
-/
import proofs.«101165_j9680856285214_2_alg».proof.Defs
import proofs.«101165_j9680856285214_2_alg».proof.Proof.Gen.Kernel
import proofs.«101165_j9680856285214_2_alg».proof.Proof.Gen.Kernel.Skeleton
import proofs.«101165_j9680856285214_2_alg».proof.Proof.Gen.Kernel.Launch
import proofs.«101165_j9680856285214_2_alg».proof.Proof.Gen.Kernel.Points
import proofs.«101165_j9680856285214_2_alg».proof.Proof.Gen.Kernel.Frame
import proofs.«101165_j9680856285214_2_alg».proof.Proof.Gen.KernelIdeal
import proofs.«101165_j9680856285214_2_alg».proof.Proof.Gen.KernelIdeal.Skeleton
import proofs.«101165_j9680856285214_2_alg».proof.Proof.Gen.KernelIdeal.Launch
import proofs.«101165_j9680856285214_2_alg».proof.Proof.Gen.KernelIdeal.Points
import proofs.«101165_j9680856285214_2_alg».proof.Proof.Gen.KernelIdeal.Frame
import proofs.«101165_j9680856285214_2_alg».proof.Proof.Gen.ReferenceIdeal
import proofs.«101165_j9680856285214_2_alg».proof.Proof.Gen.Pre_finite_inputs
import proofs.«101165_j9680856285214_2_alg».proof.Proof.KernelBlocks
import proofs.«101165_j9680856285214_2_alg».proof.Proof.RefRun
import proofs.«101165_j9680856285214_2_alg».proof.Proof.Finite
import proofs.«101165_j9680856285214_2_alg».proof.Proof.Algebra
import Idealize.ShloMosaic.Adequacy
import Idealize.ShloMosaic.Init

noncomputable section

namespace Cert.Proof

open Idealize.ShloMosaic Idealize.ShloMosaic.TcCoe Idealize.SL.Sem

/-- The kernel as printed runs and leaves its arguments unchanged: the generated frame certificate. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.RefRun.run m ρ)

/-- The idealization rewrote no operation. -/
theorem preserves : Cert.preserves_Kernel_KernelIdeal := trivial

/-- At the ideal values the kernel's result array ends at the seeded streamed sum and the reference's at the dense
    formula, of arguments that agree; for finite inputs the two are one array. -/
theorem algebraic : Cert.algebraic_KernelIdeal_ReferenceIdeal := by
  intro m ρ m' ρ' hpre hagree
  refine ⟨fun c => Cert.Dplr.denseOut (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · refine (θ_run Cert.KernelIdeal.defs _ _).mono (fun _ h c => ⟨(h c).1.trans ?_, (h c).2⟩)
      (Cert.KernelIdeal.Blocks.run m ρ)
    obtain ⟨r0, -, r2, r3, r4, -⟩ := Cert.Finite.real_of_pre _ _ _ _ _ _ (hpre c)
    exact Cert.Dplr.streamOut_eq_denseOut _ _ _ _ _ _ r0 r2 r3 r4
  · refine (θ_run Cert.ReferenceIdeal.defs _ _).mono (fun _ h c => ⟨(h c).1.trans ?_, (h c).2⟩)
      (Cert.RefRun.run m' ρ')
    rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
